-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v24_0)) (v2 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v24_0) = v1 c
          ∧ r.2.mem ((c.tc : Thread Cert.KernelIdeal.nD Cert.KernelIdeal.τ).loc Cert.KernelIdeal.main_v24_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x4096 : Shape := ⟨2, ![4096, 4096]⟩
abbrev S1x4096 : Shape := ⟨2, ![1, 4096]⟩
abbrev S1 : Shape := ⟨1, ![1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S4096x1 .f32) (main_v63 : IVec S_ 1) (main_v67 : IVec S_ 1) : IVec S_ 1 :=
  let main_v68 : IVec S_ 1 := andi main_v63 main_v67
  let main_v69 : FVec F S4096x1 .f32 := Host.absf main_arg14
  let main_cst_26 : FVec F S_ .f32 := constant S_ .f32 0x7F800000#32
  let main_v70 : FVec F S4096x1 .f32 := broadcastInDim S4096x1 ![] bcast_S_S4096x1 main_cst_26
  let main_v71 : IVec S4096x1 1 := cmpf .olt main_v69 main_v70
  let main_c_27 : IVec S_ 1 := constantI S_ 1 1#1
  let main_v72 : IVec S_ 1 := (fun x v => Host.reduce IntOp.andi x v reducesTo_S4096x1_S_d0_1 h_S_) main_v71 main_c_27
  let main_v73 : IVec S_ 1 := andi main_v68 main_v72
  main_v73

def fn_part3 {F : FTy → Type} [FloatOps F] (main_arg11 : FVec F S1x4096 .f32) (main_arg12 : FVec F S1 .f32) (main_arg13 : FVec F S4096x4096 .f32) (main_arg14 : FVec F S4096x1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x4096 .f32 := Host.absf main_arg11
  let main_cst_20 : FVec F S_ .f32 := constant S_ .f32 0x7F800000#32
  let main_v55 : FVec F S1x4096 .f32 := broadcastInDim S1x4096 ![] bcast_S_S1x4096 main_cst_20
  let main_v56 : IVec S1x4096 1 := cmpf .olt main_v54 main_v55
  let main_c_21 : IVec S_ 1 := constantI S_ 1 1#1
  let main_v57 : IVec S_ 1 := (fun x v => Host.reduce IntOp.andi x v reducesTo_S1x4096_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_v63 main_v67

def fn_part2 {F : FTy → Type} [FloatOps F] (main_arg7 : FVec F S4096x4096 .f32) (main_arg8 : FVec F S4096x1 .f32) (main_arg9 : FVec F S1x4096 .f32) (main_arg10 : FVec F S1 .f32) (main_arg11 : FVec F S1x4096 .f32) (main_arg12 : FVec F S1 .f32) (main_arg13 : FVec F S4096x4096 .f32) (main_arg14 : FVec F S4096x1 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  let main_v44 : FVec F S1x4096 .f32 := Host.absf main_arg9
  let main_cst_16 : FVec F S_ .f32 := constant S_ .f32 0x7F800000#32
  let main_v45 : FVec F S1x4096 .f32 := broadcastInDim S1x4096 ![] bcast_S_S1x4096 main_cst_16
  let main_v46 : IVec S1x4096 1 := cmpf .olt main_v44 main_v45
  let main_c_17 : IVec S_ 1 := constantI S_ 1 1#1
  let main_v47 : IVec S_ 1 := (fun x v => Host.reduce IntOp.andi x v reducesTo_S1x4096_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_v48 main_v49 main_v50

def fn_part1 {F : FTy → Type} [FloatOps F] (main_arg4 : FVec F S4096x1 .f32) (main_arg5 : FVec F S4096x4096 .f32) (main_arg6 : FVec F S4096x1 .f32) (main_arg7 : FVec F S4096x4096 .f32) (main_arg8 : FVec F S4096x1 .f32) (main_arg9 : FVec F S1x4096 .f32) (main_arg10 : FVec F S1 .f32) (main_arg11 : FVec F S1x4096 .f32) (main_arg12 : FVec F S1 .f32) (main_arg13 : FVec F S4096x4096 .f32) (main_arg14 : FVec F S4096x1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x1 .f32 := Host.absf main_arg6
  let main_cst_10 : FVec F S_ .f32 := constant S_ .f32 0x7F800000#32
  let main_v30 : FVec F S4096x1 .f32 := broadcastInDim S4096x1 ![] bcast_S_S4096x1 main_cst_10
  let main_v31 : IVec S4096x1 1 := cmpf .olt main_v29 main_v30
  let main_c_11 : IVec S_ 1 := constantI S_ 1 1#1
  let main_v32 : IVec S_ 1 := (fun x v => Host.reduce IntOp.andi x v reducesTo_S4096x1_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1 .f32) (main_arg1 : FVec F S4096x4096 .f32) (main_arg2 : FVec F S4096x1 .f32) (main_arg3 : FVec F S4096x4096 .f32) (main_arg4 : FVec F S4096x1 .f32) (main_arg5 : FVec F S4096x4096 .f32) (main_arg6 : FVec F S4096x1 .f32) (main_arg7 : FVec F S4096x4096 .f32) (main_arg8 : FVec F S4096x1 .f32) (main_arg9 : FVec F S1x4096 .f32) (main_arg10 : FVec F S1 .f32) (main_arg11 : FVec F S1x4096 .f32) (main_arg12 : FVec F S1 .f32) (main_arg13 : FVec F S4096x4096 .f32) (main_arg14 : FVec F S4096x1 .f32) : IVec S_ 1 :=
  let main_v0 : FVec F S4096x1 .f32 := Host.absf main_arg0
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1 : Shape := ⟨2, ![4096, 1]⟩
abbrev S4096x4096 : Shape := ⟨2, ![4096, 4096]⟩
abbrev S1x4096 : Shape := ⟨2, ![1, 4096]⟩
abbrev S1 : Shape := ⟨1, ![1]⟩
abbrev S_ : Shape := ⟨0, ![]⟩
abbrev S1x1 : Shape := ⟨2, ![1, 1]⟩
abbrev S1024x4096 : Shape := ⟨2, ![1024, 4096]⟩
abbrev S1x1024 : Shape := ⟨2, ![1, 1024]⟩
abbrev S1024x1 : Shape := ⟨2, ![1024, 1]⟩
abbrev S512x4096 : Shape := ⟨2, ![512, 4096]⟩
abbrev S512x1 : Shape := ⟨2, ![512, 1]⟩
abbrev S512 : Shape := ⟨1, ![512]⟩

abbrev nBuf : Space → Nat
  | .hbm => 57
  | .vmem => 51
  | .smem => 0
  | _ => 0

abbrev bufTy : (tb : Table) → Fin (tcTables nBuf tb) → BufTy
  | .hbm, ⟨0, _⟩ => ⟨S4096x1, .f32⟩
  | .hbm, ⟨1, _⟩ => ⟨S4096x4096, .f32⟩
  | .hbm, ⟨2, _⟩ => ⟨S4096x1, .f32⟩
  | .hbm, ⟨3, _⟩ => ⟨S4096x4096, .f32⟩
  | .hbm, ⟨4, _⟩ => ⟨S4096x1, .f32⟩
  | .hbm, ⟨5, _⟩ => ⟨S4096x4096, .f32⟩
  | .hbm, ⟨6, _⟩ => ⟨S4096x1, .f32⟩
  | .hbm, ⟨7, _⟩ => ⟨S4096x4096, .f32⟩
  | .hbm, ⟨8, _⟩ => ⟨S4096x1, .f32⟩
  | .hbm, ⟨9, _⟩ => ⟨S1x4096, .f32⟩
  | .hbm, ⟨10, _⟩ => ⟨S1, .f32⟩
  | .hbm, ⟨11, _⟩ => ⟨S1x4096, .f32⟩
  | .hbm, ⟨12, _⟩ => ⟨S1, .f32⟩
  | .hbm, ⟨13, _⟩ => ⟨S4096x4096, .f32⟩
  | .hbm, ⟨14, _⟩ => ⟨S4096x1, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S_, .f32⟩
  | .hbm, ⟨19, _⟩ => ⟨S1x4096, .f32⟩
  | .hbm, ⟨20, _⟩ => ⟨S1x4096, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S1x1, .f32⟩
  | .hbm, ⟨31, _⟩ => ⟨S1x1, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S1x1, .f32⟩
  | .hbm, ⟨39, _⟩ => ⟨S1x4096, .f32⟩
  | .hbm, ⟨40, _⟩ => ⟨S1x4096, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x4096, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .local _ .vmem, ⟨0, _⟩ => ⟨S1x4096, .f32⟩
  | .local _ .vmem, ⟨1, _⟩ => ⟨S1024x4096, .f32⟩
  | .local _ .vmem, ⟨2, _⟩ => ⟨S1024x4096, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x4096, .f32⟩
  | .local _ .vmem, ⟨8, _⟩ => ⟨S4096x1, .f32⟩
  | .local _ .vmem, ⟨9, _⟩ => ⟨S1024x4096, .f32⟩
  | .local _ .vmem, ⟨10, _⟩ => ⟨S1024x4096, .f32⟩
  | .local _ .vmem, ⟨11, _⟩ => ⟨S1x1024, .f32⟩
  | .local _ .vmem, ⟨12, _⟩ => ⟨S1x1024, .f32⟩
  | .local _ .vmem, ⟨13, _⟩ => ⟨S1024x1, .f32⟩
  | .local _ .vmem, ⟨14, _⟩ => ⟨S1024x1, .f32⟩
  | .local _ .vmem, ⟨15, _⟩ => ⟨S1x1024, .f32⟩
  | .local _ .vmem, ⟨16, _⟩ => ⟨S1x1024, .f32⟩
  | .local _ .vmem, ⟨17, _⟩ => ⟨S1024x1, .f32⟩
  | .local _ .vmem, ⟨18, _⟩ => ⟨S1024x1, .f32⟩
  | .local _ .vmem, ⟨19, _⟩ => ⟨S4096x1, .f32⟩
  | .local _ .vmem, ⟨20, _⟩ => ⟨S1024x4096, .f32⟩
  | .local _ .vmem, ⟨21, _⟩ => ⟨S1024x4096, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S4096x1, .f32⟩
  | .local _ .vmem, ⟨27, _⟩ => ⟨S1024x4096, .f32⟩
  | .local _ .vmem, ⟨28, _⟩ => ⟨S1024x4096, .f32⟩
  | .local _ .vmem, ⟨29, _⟩ => ⟨S1024x1, .f32⟩
  | .local _ .vmem, ⟨30, _⟩ => ⟨S1024x1, .f32⟩
  | .local _ .vmem, ⟨31, _⟩ => ⟨S1024x1, .f32⟩
  | .local _ .vmem, ⟨32, _⟩ => ⟨S1024x1, .f32⟩
  | .local _ .vmem, ⟨33, _⟩ => ⟨S512x4096, .f32⟩
  | .local _ .vmem, ⟨34, _⟩ => ⟨S512x4096, .f32⟩
  | .local _ .vmem, ⟨35, _⟩ => ⟨S512x1, .f32⟩
  | .local _ .vmem, ⟨36, _⟩ => ⟨S512x1, .f32⟩
  | .local _ .vmem, ⟨37, _⟩ => ⟨S512x1, .f32⟩
  | .local _ .vmem, ⟨38, _⟩ => ⟨S512x1, .f32⟩
  | .local _ .vmem, ⟨39, _⟩ => ⟨S512x1, .f32⟩
  | .local _ .vmem, ⟨40, _⟩ => ⟨S512x1, .f32⟩
  | .local _ .vmem, ⟨41, _⟩ => ⟨S1x4096, .f32⟩
  | .local _ .vmem, ⟨42, _⟩ => ⟨S1x4096, .f32⟩
  | .local _ .vmem, ⟨43, _⟩ => ⟨S1x1, .f32⟩
  | .local _ .vmem, ⟨44, _⟩ => ⟨S1x1, .f32⟩
  | .local _ .vmem, ⟨45, _⟩ => ⟨S512x4096, .f32⟩
  | .local _ .vmem, ⟨46, _⟩ => ⟨S512x4096, .f32⟩
  | .local _ .vmem, ⟨47, _⟩ => ⟨S512x1, .f32⟩
  | .local _ .vmem, ⟨48, _⟩ => ⟨S512x1, .f32⟩
  | .local _ .vmem, ⟨49, _⟩ => ⟨S512x1, .f32⟩
  | .local _ .vmem, ⟨50, _⟩ => ⟨S512x1, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg8_0 : Ref sig .tc := ⟨.vmem, 45, rfl⟩
abbrev cc4_stg8_1 : Ref sig .tc := ⟨.vmem, 46, rfl⟩
abbrev cc4_stg9_0 : Ref sig .tc := ⟨.vmem, 47, rfl⟩
abbrev cc4_stg9_1 : Ref sig .tc := ⟨.vmem, 48, rfl⟩
abbrev cc4_stg10_0 : Ref sig .tc := ⟨.vmem, 49, rfl⟩
abbrev cc4_stg10_1 : Ref sig .tc := ⟨.vmem, 50, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem3_1 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem8_0 : DmaSem sig := 45
abbrev cc4_sem8_1 : DmaSem sig := 46
abbrev cc4_sem9_0 : DmaSem sig := 47
abbrev cc4_sem9_1 : DmaSem sig := 48
abbrev cc4_sem10_0 : DmaSem sig := 49
abbrev cc4_sem10_1 : DmaSem sig := 50

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4096x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S4096x1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1024x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x4096 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x4096 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S512x4096 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S512x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S512x1 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  shapeCasts_S4096x1_S1x4096 : S4096x1.ShapeCasts S1x4096
  bcast_S_S1x4096 : S_.BroadcastsInDim S1x4096 (![] : Fin 0 → Fin S1x4096.rank)
  bcast_S_S4096x1 : S_.BroadcastsInDim S4096x1 (![] : Fin 0 → Fin S4096x1.rank)
  bcast_S1_S1x1_1 : S1.BroadcastsInDim S1x1 (![1] : Fin 1 → Fin S1x1.rank)
  bcast_S_S1x1 : S_.BroadcastsInDim S1x1 (![] : Fin 0 → Fin S1x1.rank)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S4096x1_S4096x1_0_0 : ∀ a, (![0, 0] : Fin 2 → Nat) a + S4096x1.size a ≤ S4096x1.size a
  h_S4096x1 : 0 < S4096x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  broadcasts_S512x1_S512x4096 : S512x1.Broadcasts S512x4096
  broadcasts_S1x4096_S512x4096 : S1x4096.Broadcasts S512x4096
  reduces_S512x4096_S512 : S512x4096.Reduces [1] S512
  shapeCasts_S512_S512x1 : S512.ShapeCasts S512x1
  shapeCasts_S1x4096_S4096x1 : S1x4096.ShapeCasts S4096x1
  reducesTo_S4096x1_S_d0_1 : S4096x1.ReducesTo [0, 1] S_
  h_S_ : 0 < S_.numel
  dot_S1x4096_S4096x1_S1x1_1_0_0_1_n_n_wf : DotDims.WF S1x4096 S4096x1 S1x1 [1] [0] [0] [1] [] []
  dot_S1x4096_S1024x4096_S1x1024_1_1_0_0_n_n_wf : DotDims.WF S1x4096 S1024x4096 S1x1024 [1] [1] [0] [0] [] []
  dot_S1024x4096_S4096x1_S1024x1_1_0_0_1_n_n_wf : DotDims.WF S1024x4096 S4096x1 S1024x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .f32 = 32 ∨ (Rect.block (s := S4096x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S4096x1.size a
  hwx1_1 : ∀ i : grid1.Coords, EltTy.bits .f32 = 32 ∨ (Rect.block (s := S4096x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S4096x4096.size a
  hwx1_2 : ∀ i : grid1.Coords, EltTy.bits .f32 = 32 ∨ (Rect.block (s := S4096x4096) S1024x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x4096.size a
  hwx1_5 : ∀ i : grid1.Coords, EltTy.bits .f32 = 32 ∨ (Rect.block (s := S1x4096) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S4096x1.size a
  hwx1_6 : ∀ i : grid1.Coords, EltTy.bits .f32 = 32 ∨ (Rect.block (s := S4096x1) S1024x1.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x1.size a ≤ S4096x1.size a
  hwx2_0 : ∀ i : grid2.Coords, EltTy.bits .f32 = 32 ∨ (Rect.block (s := S4096x1) S4096x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .f32 = 32 ∨ (Rect.block (s := S4096x4096) S1024x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S4096x1.size a
  hwx2_2 : ∀ i : grid2.Coords, EltTy.bits .f32 = 32 ∨ (Rect.block (s := S4096x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .f32 = 32 ∨ (Rect.block (s := S4096x1) S1024x1.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S4096x1.size a ≤ S4096x1.size a
  hwx3_0 : ∀ i : grid3.Coords, EltTy.bits .f32 = 32 ∨ (Rect.block (s := S4096x1) S4096x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x4096.size a ≤ S4096x4096.size a
  hwx3_1 : ∀ i : grid3.Coords, EltTy.bits .f32 = 32 ∨ (Rect.block (s := S4096x4096) S1024x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S4096x1.size a
  hwx3_2 : ∀ i : grid3.Coords, EltTy.bits .f32 = 32 ∨ (Rect.block (s := S4096x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S4096x1.size a
  hwx3_3 : ∀ i : grid3.Coords, EltTy.bits .f32 = 32 ∨ (Rect.block (s := S4096x1) S1024x1.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S4096x4096.size a
  hwx4_0 : ∀ i : grid4.Coords, EltTy.bits .f32 = 32 ∨ (Rect.block (s := S4096x4096) S512x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S4096x1.size a
  hwx4_1 : ∀ i : grid4.Coords, EltTy.bits .f32 = 32 ∨ (Rect.block (s := S4096x1) S512x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S4096x1.size a
  hwx4_2 : ∀ i : grid4.Coords, EltTy.bits .f32 = 32 ∨ (Rect.block (s := S4096x1) S512x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1.size a ≤ S4096x1.size a
  hwx4_3 : ∀ i : grid4.Coords, EltTy.bits .f32 = 32 ∨ (Rect.block (s := S4096x1) S512x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x4096.size a ≤ S1x4096.size a
  hwx4_4 : ∀ i : grid4.Coords, EltTy.bits .f32 = 32 ∨ (Rect.block (s := S1x4096) S1x4096.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x4096.size a ≤ S1x4096.size a
  hwx4_5 : ∀ i : grid4.Coords, EltTy.bits .f32 = 32 ∨ (Rect.block (s := S1x4096) S1x4096.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S512x4096.size a ≤ S4096x4096.size a
  hwx4_8 : ∀ i : grid4.Coords, EltTy.bits .f32 = 32 ∨ (Rect.block (s := S4096x4096) S512x4096.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S512x1.size a ≤ S4096x1.size a
  hwx4_9 : ∀ i : grid4.Coords, EltTy.bits .f32 = 32 ∨ (Rect.block (s := S4096x1) S512x1.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S512x1.size a ≤ S4096x1.size a
  hwx4_10 : ∀ i : grid4.Coords, EltTy.bits .f32 = 32 ∨ (Rect.block (s := S4096x1) S512x1.size (cc4_transform_10 i) (hinb4_10 i)).WholeWords (EltTy.packing .f32)

variable [Facts₀]

def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf
def dot_S1x4096_S1024x4096_S1x1024_1_1_0_0_n_n : DotDims S1x4096 S1024x4096 S1x1024 where
  lhsContracting := [1]
  rhsContracting := [1]
  lhsNonContracting := [0]
  rhsNonContracting := [0]
  lhsBatch := []
  rhsBatch := []
  wf := dot_S1x4096_S1024x4096_S1x1024_1_1_0_0_n_n_wf
def dot_S1024x4096_S4096x1_S1024x1_1_0_0_1_n_n : DotDims S1024x4096 S4096x1 S1024x1 where
  lhsContracting := [1]
  rhsContracting := [0]
  lhsNonContracting := [0]
  rhsNonContracting := [1]
  lhsBatch := []
  rhsBatch := []
  wf := dot_S1024x4096_S4096x1_S1024x1_1_0_0_1_n_n_wf

abbrev win0_0 : Pipeline.Window sig grid0 :=
  Pipeline.Window.ofSpec (Memref.whole main_v0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4096x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_0) S1x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_1) S1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S4096x1.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1024x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S4096x1.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S1024x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v23) S1024x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg1) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S512x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S512x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v21_1) S512x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v21_0) S1x4096.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v20) S1x4096.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v10) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v19) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v24_0) S512x4096.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v24_1) S512x1.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v24_2) S512x1.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S4096x1 : Shape := ⟨2, ![4096, 1]⟩
abbrev S4096x4096 : Shape := ⟨2, ![4096, 4096]⟩
abbrev S1x4096 : Shape := ⟨2, ![1, 4096]⟩
abbrev S1 : Shape := ⟨1, ![1]⟩
abbrev S_ : Shape := ⟨0, ![]⟩
abbrev S1x1 : Shape := ⟨2, ![1, 1]⟩
abbrev S4096 : Shape := ⟨1, ![4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x1, .f32⟩
  | .hbm, ⟨1, _⟩ => ⟨S4096x4096, .f32⟩
  | .hbm, ⟨2, _⟩ => ⟨S4096x1, .f32⟩
  | .hbm, ⟨3, _⟩ => ⟨S4096x4096, .f32⟩
  | .hbm, ⟨4, _⟩ => ⟨S4096x1, .f32⟩
  | .hbm, ⟨5, _⟩ => ⟨S4096x4096, .f32⟩
  | .hbm, ⟨6, _⟩ => ⟨S4096x1, .f32⟩
  | .hbm, ⟨7, _⟩ => ⟨S4096x4096, .f32⟩
  | .hbm, ⟨8, _⟩ => ⟨S4096x1, .f32⟩
  | .hbm, ⟨9, _⟩ => ⟨S1x4096, .f32⟩
  | .hbm, ⟨10, _⟩ => ⟨S1, .f32⟩
  | .hbm, ⟨11, _⟩ => ⟨S1x4096, .f32⟩
  | .hbm, ⟨12, _⟩ => ⟨S1, .f32⟩
  | .hbm, ⟨13, _⟩ => ⟨S4096x4096, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S1x1, .f32⟩
  | .hbm, ⟨31, _⟩ => ⟨S1x1, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S1x1, .f32⟩
  | .hbm, ⟨39, _⟩ => ⟨S4096, .f32⟩
  | .hbm, ⟨40, _⟩ => ⟨S4096, .f32⟩
  | .hbm, ⟨41, _⟩ => ⟨S4096x4096, .f32⟩
  | .hbm, ⟨42, _⟩ => ⟨S4096x4096, .f32⟩
  | .hbm, ⟨43, _⟩ => ⟨S4096x1, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S1x4096, .f32⟩
  | .hbm, ⟨58, _⟩ => ⟨S1x1, .f32⟩
  | .hbm, ⟨59, _⟩ => ⟨S1x1, .f32⟩
  | .hbm, ⟨60, _⟩ => ⟨S_, .f32⟩
  | .hbm, ⟨61, _⟩ => ⟨S1x1, .f32⟩
  | .hbm, ⟨62, _⟩ => ⟨S1x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_2 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S1_S1x1_1 : S1.BroadcastsInDim S1x1 (![1] : Fin 1 → Fin S1x1.rank)
  bcast_S_S1x1 : S_.BroadcastsInDim S1x1 (![] : Fin 0 → Fin S1x1.rank)
  shapeCasts_S4096x1_S4096 : S4096x1.ShapeCasts S4096
  bcast_S1x1_S4096x4096_0_1 : S1x1.BroadcastsInDim S4096x4096 (![0, 1] : Fin 2 → Fin S4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S1x1_S4096x1_0_1 : S1x1.BroadcastsInDim S4096x1 (![0, 1] : Fin 2 → Fin S4096x1.rank)
  transposes_S4096x1_S1x4096_1_0 : S4096x1.Transposes [1, 0] S1x4096
  dot_S4096x4096_S4096x1_S4096x1_1_0_0_1_n_n_wf : DotDims.WF S4096x4096 S4096x1 S4096x1 [1] [0] [0] [1] [] []
  dot_S1x4096_S4096x1_S1x1_1_0_0_1_n_n_wf : DotDims.WF S1x4096 S4096x1 S1x1 [1] [0] [0] [1] [] []

variable [Facts₀]

def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

class Facts : Prop extends Facts₀ where

variable [Facts]
-- ==== Proof.KRun.lean ====
/-
  The kernel program's run with its three results named: every weakly fair execution terminates, nothing faults,
  the arguments end as launched, and each result buffer ends at the last boundary's contents of the fold through
  the program's segments (host operations, five regions, host operations).
-/
import proofs.«162263_j86105504350522_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, its final state read at the three result buffers as well as at
    the arguments: a result buffer is unscoped, so the last thread state holds it at the last boundary's contents. -/
theorem run_results : θ_run defs (onTc (τ := τ) (main (F := F))) ⟨m, fun _ => 0, ρ⟩ (fun r => ∀ c : Dev nD,
      r.2.mem ((c.tc : Thread nD τ).loc main_v32) = W7 m ρ c (Proc.devRef .tc main_v32)
      ∧ r.2.mem ((c.tc : Thread nD τ).loc main_v24_0) = W7 m ρ c (Proc.devRef .tc main_v24_0)
      ∧ r.2.mem ((c.tc : Thread nD τ).loc main_v24_1) = W7 m ρ c (Proc.devRef .tc main_v24_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v32 (by decide)),
       h c _ (mem_uc main_v24_0 (by decide)),
       h c _ (mem_uc main_v24_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

end Cert.KernelIdeal.Run

end
-- ==== Proof.Spec.lean ====
/-
  The single-step matrix-memory cell, as functions on the extended reals, index by index.

  Two spellings of every intermediate are named here. The tiled spelling takes the input as a row vector against
  the ROWS of a weight matrix (entry (0, j) is the sum over k of x(0, k) * W(j, k)), scales the sum, and adds a
  bias that was scaled beforehand; the plain spelling takes the matrix against the column vector, adds the bias
  and scales afterwards. The memory update is C(i, j) = f * C'(i, j) + g * (v(i) * k(j)), the normaliser update
  n(i) = f * n'(i) + g * k(i), and the readout divides the row sums of C(i, k) * q(k) by max(|sum n(k) * q(k)|, 1).
-/
import Idealize.ShloMosaic.PureOps.Ideal.Laws
import Idealize.ShloMosaic.Lib.ValueIdx

noncomputable section

namespace Cert.Spec

open Idealize.ShloMosaic Idealize.ShloMosaic.ValueIdx

abbrev SCol : Shape := ⟨2, ![4096, 1]⟩
abbrev SRow : Shape := ⟨2, ![1, 4096]⟩
abbrev SMat : Shape := ⟨2, ![4096, 4096]⟩
abbrev SOne : Shape := ⟨2, ![1, 1]⟩
abbrev Col := FVec Ideal SCol .f32
abbrev Row := FVec Ideal SRow .f32
abbrev Mat := FVec Ideal SMat .f32
abbrev Sc := FVec Ideal SOne .f32

/-- The single-precision word of 1/64. -/
def c64 : EReal := Ideal.ofBits .f32 0x3C800000#32
/-- The single-precision word of 1. -/
def one : EReal := Ideal.ofBits .f32 0x3F800000#32
/-- The single-precision word of 0. -/
def zero : EReal := Ideal.ofBits .f32 0x00000000#32

/-- A bias entry scaled beforehand. -/
def scale64 (a : EReal) : EReal := a * c64

/-! ## The tiled spelling -/

/-- A row vector against the rows of a matrix, scaled, plus a row bias. -/
def rowMv (s : EReal) (xr : Row) (W : Mat) (br : Row) : Row :=
  fun j => (∑ k : Fin 4096, xr (ix2 (j 0) k) * W (ix2 (j 1) k)) * s + br j

/-- A matrix against a column vector, scaled, plus a column bias. -/
def colMv (s : EReal) (x : Col) (W : Mat) (b : Col) : Col :=
  fun j => (∑ k : Fin 4096, W (ix2 (j 0) k) * x (ix2 k (j 1))) * s + b j

/-- The same under the logistic function. -/
def colMvSig (x : Col) (W : Mat) (b : Col) : Col :=
  fun j => Ideal.logistic (colMv one x W b j)

/-- The memory update with the key as a row vector. -/
def updC (g f : Sc) (Cp : Mat) (v : Col) (kr : Row) : Mat :=
  fun j => f (ix2 0 0) * Cp j + g (ix2 0 0) * (v (ix2 (j 0) 0) * kr (ix2 0 (j 1)))

/-- The normaliser update. -/
def updN (g f : Sc) (np kc : Col) : Col :=
  fun j => f (ix2 0 0) * np j + g (ix2 0 0) * kc j

/-- The row sums of the updated memory against the query as a row vector. -/
def readH (g f : Sc) (Cp : Mat) (v : Col) (kr qr : Row) : Col :=
  fun j => ∑ k : Fin 4096, updC g f Cp v kr (ix2 (j 0) k) * qr (ix2 0 k)

/-- The normalised, gated readout, the query as a row vector, the normaliser's sum started from the zero word. -/
def outH (o hw n : Col) (qr : Row) : Col :=
  fun j => o j * Ideal.div (hw j)
    (max (FloatOps.absf (F := Ideal) (φ := .f32) (zero + ∑ r : Fin 4096, n (ix2 r 0) * qr (ix2 0 r))) one)

/-! ## The plain spelling -/

/-- A matrix against a column vector plus a bias. -/
def refMv (W : Mat) (x b : Col) : Col :=
  fun j => (∑ k : Fin 4096, W (ix2 (j 0) k) * x (ix2 k (j 1))) + b j

/-- The key: scaled after the bias is added. -/
def refK (W : Mat) (x b : Col) : Col := fun j => c64 * refMv W x b j

/-- The output gate, the logistic function spelt as a quotient. -/
def refO (W : Mat) (x b : Col) : Col :=
  fun j => Ideal.div one (one + Ideal.exp (-(refMv W x b j)))

/-- The memory update with value and key as column vectors. -/
def refC (g f : Sc) (Cp : Mat) (v k : Col) : Mat :=
  fun j => f (ix2 0 0) * Cp j + g (ix2 0 0) * (v (ix2 (j 0) 0) * k (ix2 (j 1) 0))

/-- The normalised, gated readout against the query as a column vector. -/
def refH (o : Col) (C : Mat) (n q : Col) : Col :=
  fun j => o j * Ideal.div (∑ k : Fin 4096, C (ix2 (j 0) k) * q (ix2 k (j 1)))
    (max (FloatOps.absf (F := Ideal) (φ := .f32) (∑ k : Fin 4096, n (ix2 k 0) * q (ix2 k 0))) one)

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibRowDot.lean ====
/-
  A matrix product whose right operand is contracted on its last axis, read at an index on the extended reals.

  For an `M×K` by `N×K` contraction (left axis 1 against right axis 1, no batch axis) the element at `(r, c)` of
  a matrix-unit product into a zero accumulator is the sum over `k : Fin K` of `l (r, k) * w (c, k)`: a row of the
  left operand against a ROW of the right operand. The contraction's one-axis index type is re-indexed by its
  single coordinate.
-/
import Idealize.ShloMosaic.PureOps.Ideal.Laws
import Idealize.ShloMosaic.Lib.ValueIdx

noncomputable section

namespace Cert.RowDot

open Idealize.ShloMosaic Idealize.ShloMosaic.ValueIdx

/-- The contraction sum of an `M×K` by `N×K` product (right operand contracted on its last axis) at output
    index `j`, over `Fin K`. -/
theorem contr_sum (M K N : Nat) (l : (⟨2, ![M, K]⟩ : Shape).Idx → EReal) (w : (⟨2, ![N, K]⟩ : Shape).Idx → EReal)
    (j : (⟨2, ![M, N]⟩ : Shape).Idx) :
    (∑ q : (DotDims.transposedRhs M K N).contr.Idx,
        l ((DotDims.transposedRhs M K N).lhsIdx j q) * w ((DotDims.transposedRhs M K N).rhsIdx j q))
      = ∑ k : Fin K, l (ix2 (j 0) k) * w (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => rfl
      | ⟨1, _⟩ => exact hk)
  have er : (DotDims.transposedRhs M K N).rhsIdx j ((contrEquiv1 (DotDims.transposedRhs M K N) K rfl rfl).symm k)
      = ix2 (j 1) k :=
    funext fun a => Fin.ext (by
      match a with
      | ⟨0, _⟩ => rfl
      | ⟨1, _⟩ => exact hk)
  rw [el, er]
  rfl

/-- A matrix-unit product of a left operand against the rows of the right operand, into the zero accumulator,
    at an index. -/
theorem matmul_zero_apply (M K N : Nat) {φ₁ φ₂ : FTy} (prec : Option ContractPrecision)
    (l : FVec Ideal (⟨2, ![M, K]⟩ : Shape) φ₁) (w : FVec Ideal (⟨2, ![N, K]⟩ : Shape) φ₂) (j : (⟨2, ![M, N]⟩ : Shape).Idx) :
    FloatOps.matmul (DotDims.transposedRhs M K N) prec l w (constant (⟨2, ![M, N]⟩ : Shape) .f32 0x00000000#32) j
      = ∑ k : Fin K, l (ix2 (j 0) k) * w (ix2 (j 1) k) :=
  (Ideal.matmul_constant_zero_apply (DotDims.transposedRhs M K N) prec l w j).trans (contr_sum M K N l w j)

end Cert.RowDot

end
-- ==== Proof.KReg0.lean ====
/-
  Region 0: the query as a row vector. Each grid point takes the whole input row, a block of 1024 rows of the
  weight matrix and the matching 1024 entries of the bias row, and writes the 1024 entries
  (sum over k of x(0, k) * W(j, k)) * 1 + b(0, j) of the output row; the four blocks tile the row, so the output array
  ends as that function of the arrays the region finds.
-/
import proofs.«162263_j86105504350522_1_alg».proof.Proof.Gen.KernelIdeal.Frame
import proofs.«162263_j86105504350522_1_alg».proof.Proof.Spec
import proofs.«162263_j86105504350522_1_alg».proof.Proof.LibPlainDot
import proofs.«162263_j86105504350522_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.Reg0

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an index: the row vector against row `q` of the matrix block, times the word of 1,
    plus the bias entry. -/
theorem pay_apply (x0 : Vec Ideal S1x4096 .f32) (x1 : Vec Ideal S1024x4096 .f32) (x2 : Vec Ideal S1x1024 .f32)
    (p : Fin 1) (q : Fin 1024) :
    k0_pay1 (F := Ideal) x0 x1 x2 (ix2 p q)
      = (∑ k : Fin 4096, x0 (ix2 p k) * x1 (ix2 q k)) * Cert.Spec.one + x2 (ix2 p q) := by
  unfold k0_pay1
  simp only [shapeCast_self]
  refine congrArg₂ (· + ·) (congrArg (· * Cert.Spec.one) ?_) rfl
  exact Cert.RowDot.matmul_zero_apply 1 4096 1024 (φ₁ := .bf16) (φ₂ := .bf16) none _ _ (ix2 p q)

/-- One entry of a block: when the vector block, the matrix block's row and the bias block's entry are the
    arrays' entries that `rowMv` reads at `i`, the body's arithmetic at `y` is `rowMv` at `i`. -/
theorem block_eq (a0 : Cert.Spec.Row) (a1 : Cert.Spec.Mat) (a2 : Cert.Spec.Row)
    (xb : Vec Ideal S1x4096 .f32) (wb : Vec Ideal S1024x4096 .f32) (bb : Vec Ideal S1x1024 .f32)
    (y : S1x1024.Idx) (i : Cert.Spec.SRow.Idx)
    (h0 : ∀ k : Fin 4096, xb (ix2 (y 0) k) = a0 (ix2 (i 0) k))
    (h1 : ∀ k : Fin 4096, wb (ix2 (y 1) k) = a1 (ix2 (i 1) k))
    (h2 : bb y = a2 i) :
    k0_pay1 (F := Ideal) xb wb bb y = Cert.Spec.rowMv Cert.Spec.one a0 a1 a2 i := by
  obtain ⟨p, q, rfl⟩ : ∃ p q, y = ix2 p q := ⟨y 0, y 1, eq_ix2 y⟩
  have e0 : ∀ k : Fin 4096, xb (ix2 p k) = a0 (ix2 (i 0) k) := h0
  have e1 : ∀ k : Fin 4096, wb (ix2 q k) = a1 (ix2 (i 1) k) := h1
  rw [pay_apply]
  unfold Cert.Spec.rowMv
  refine congrArg₂ (· + ·) (congrArg (· * Cert.Spec.one) (Finset.sum_congr rfl fun k _ => ?_)) h2
  rw [e0 k, e1 k]

/-- The printed index maps, decided over the grid: the vector's window stays at block (0, 0); the matrix's row
    block and the bias's column block are the output's column block. -/
theorem idx_facts : ∀ t : Fin cfg0.N,
    win0_0.index t (0 : Fin 2) = 0 ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) = 0 ∧ win0_3.index t (1 : Fin 2) ≤ 3 :=
  (by decide +kernel : ∀ t : Fin grid0.N, _)

/-- Every column block of the output is some point's. -/
theorem idx_onto : ∀ q : Fin 4, ∃ t : Fin cfg0.N, win0_3.index t = ![0, q.val] :=
  (by decide +kernel : ∀ q : Fin 4, ∃ t : Fin grid0.N, win0_3.index t = ![0, q.val])

/-- What point `t` writes back is block `t` of `rowMv` of the arrays as the region finds them. -/
theorem flushed_eq (c : Dev nD) (t : Fin cfg0.N) :
    (dat0 (F := Ideal) V c).flushed 3 t = ((cfg0.win 3).blk t).view.read (Elt Ideal)
      (Cert.Spec.rowMv Cert.Spec.one (V c main_v0) (V c main_arg3) (V c main_v1)) := by
  show (cfg0.win 3).cut (grid0.coords t) ((dat0 V c).after 3 t) = _
  rw [after0_3]
  unfold out0_3
  rw [View.canon_unit_zero hz]
  simp only [View.ld_unit_zero (S := S1x4096) hz, View.ld_unit_zero (S := S1024x4096) hz, View.ld_unit_zero (S := S1x1024) hz]
  obtain ⟨f00, f01, f10, f11, f20, f21, f30, f31⟩ := idx_facts t
  funext y
  have hy0 : (y 0).val < 1 := (y 0).isLt
  have hy1 : (y 1).val < 1024 := (y 1).isLt
  refine block_eq (V c main_v0) (V c main_arg3) (V c main_v1) (iblk0 V c 0 t) (iblk0 V c 1 t) (iblk0 V c 2 t) y
    (((cfg0.win 3).blk t).view.emb y) (fun k => ?_) (fun k => ?_) ?_
  · refine congrArg (V c main_v0) (funext fun a => Fin.ext ?_)
    match a with
    | ⟨0, _⟩ => show win0_0.index t (0 : Fin 2) * 1 + 1 * (y 0).val = win0_3.index t (0 : Fin 2) * 1 + 1 * (y 0).val; omega
    | ⟨1, _⟩ => show win0_0.index t (1 : Fin 2) * 4096 + 1 * k.val = k.val; omega
  · refine congrArg (V c main_arg3) (funext fun a => Fin.ext ?_)
    match a with
    | ⟨0, _⟩ => show win0_1.index t (0 : Fin 2) * 1024 + 1 * (y 1).val = win0_3.index t (1 : Fin 2) * 1024 + 1 * (y 1).val; omega
    | ⟨1, _⟩ => show win0_1.index t (1 : Fin 2) * 4096 + 1 * k.val = k.val; omega
  · refine congrArg (V c main_v1) (funext fun a => Fin.ext ?_)
    match a with
    | ⟨0, _⟩ => show win0_2.index t (0 : Fin 2) * 1 + 1 * (y 0).val = win0_3.index t (0 : Fin 2) * 1 + 1 * (y 0).val; omega
    | ⟨1, _⟩ => show win0_2.index t (1 : Fin 2) * 1024 + 1 * (y 1).val = win0_3.index t (1 : Fin 2) * 1024 + 1 * (y 1).val; omega

/-- An index of the output array is in point `t`'s block iff each coordinate is in the block's range. -/
theorem mem_blk (t : Fin cfg0.N) (i : S1x4096.Idx) :
    i ∈ ((cfg0.win 3).blk t).view.set ↔ ∀ a : Fin 2, win0_3.index t a * S1x1024.size a ≤ (i a).val
      ∧ (i a).val < win0_3.index t a * S1x1024.size a + S1x1024.size a := by
  show i ∈ ((View.whole main_v20).slice (win0_3.rect t)).set ↔ _
  rw [View.set_slice_whole, Rect.mem_set_unit]
  exact Iff.rfl

/-- The blocks cover the output array: column `j` is in the block of the point with column block `j / 1024`. -/
theorem cover (i : S1x4096.Idx) :
    ∃ t : Fin cfg0.N, (cfg0.win 3).flush t = true ∧ i ∈ ((cfg0.win 3).blk t).view.set := by
  have hi0 : (i 0).val < 1 := (i 0).isLt
  have hi1 : (i 1).val < 4096 := (i 1).isLt
  obtain ⟨t, ht⟩ := idx_onto ⟨(i 1).val / 1024, by omega⟩
  have q0 : win0_3.index t (0 : Fin 2) = 0 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 1024 ≤ (i 1).val ∧ (i 1).val < win0_3.index t (1 : Fin 2) * 1024 + 1024; omega

/-- What region 0 leaves in its output array: the query as a row vector. -/
theorem arr0 (c : Dev nD) :
    (dat0 (F := Ideal) V c).arrAt 3 cfg0.N = Cert.Spec.rowMv Cert.Spec.one (V c main_v0) (V c main_arg3) (V c main_v1) :=
  (dat0 (F := Ideal) V c).arrAt_eq_of_cover 3 _ (fun t _ => flushed_eq V c t) cover

end Cert.KernelIdeal.Reg0

end
-- ==== Proof.KReg1.lean ====
/-
  Region 1, row output: the scaled key as a row vector. Each grid point takes the whole input row, a block of 1024
  rows of the weight matrix and the matching entries of the pre-scaled bias row, and writes the entries
  (sum over k of x(0, k) * W(j, k)) * (1/64) + b(0, j); the four blocks tile the row.
-/
import proofs.«162263_j86105504350522_1_alg».proof.Proof.Gen.KernelIdeal.Frame
import proofs.«162263_j86105504350522_1_alg».proof.Proof.Spec
import proofs.«162263_j86105504350522_1_alg».proof.Proof.LibPlainDot
import proofs.«162263_j86105504350522_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.Reg1

variable (V : (c : Dev nD) → (b : Ref sig .tc) → Buf (Elt Ideal) ((c : Thread nD τ).loc b))

theorem hz : (![0, 0] : Fin 2 → Nat) = fun _ => 0 := funext fun a => by fin_cases a <;> rfl

/-- The row output's arithmetic at an index: the row vector against row `q` of the matrix block, times the word
    of 1/64, plus the bias entry. -/
theorem pay_apply (x0 : Vec Ideal S1x4096 .f32) (x1 : Vec Ideal S1024x4096 .f32) (x2 : Vec Ideal S1x1024 .f32)
    (p : Fin 1) (q : Fin 1024) :
    k1_pay2 (F := Ideal) x0 x1 x2 (ix2 p q)
      = (∑ k : Fin 4096, x0 (ix2 p k) * x1 (ix2 q k)) * Cert.Spec.c64 + x2 (ix2 p q) := by
  unfold k1_pay2 k1_pay1
  simp only [shapeCast_self]
  refine congrArg₂ (· + ·) (congrArg (· * Cert.Spec.c64) ?_) rfl
  exact Cert.RowDot.matmul_zero_apply 1 4096 1024 (φ₁ := .bf16) (φ₂ := .bf16) none _ _ (ix2 p q)

/-- One entry of a block: when the vector block, the matrix block's row and the bias block's entry are the
    arrays' entries that `rowMv` reads at `i`, the body's arithmetic at `y` is `rowMv` at `i`. -/
theorem block_eq (a0 : Cert.Spec.Row) (a1 : Cert.Spec.Mat) (a2 : Cert.Spec.Row)
    (xb : Vec Ideal S1x4096 .f32) (wb : Vec Ideal S1024x4096 .f32) (bb : Vec Ideal S1x1024 .f32)
    (y : S1x1024.Idx) (i : Cert.Spec.SRow.Idx)
    (h0 : ∀ k : Fin 4096, xb (ix2 (y 0) k) = a0 (ix2 (i 0) k))
    (h1 : ∀ k : Fin 4096, wb (ix2 (y 1) k) = a1 (ix2 (i 1) k))
    (h2 : bb y = a2 i) :
    k1_pay2 (F := Ideal) xb wb bb y = Cert.Spec.rowMv Cert.Spec.c64 a0 a1 a2 i := by
  obtain ⟨p, q, rfl⟩ : ∃ p q, y = ix2 p q := ⟨y 0, y 1, eq_ix2 y⟩
  have e0 : ∀ k : Fin 4096, xb (ix2 p k) = a0 (ix2 (i 0) k) := h0
  have e1 : ∀ k : Fin 4096, wb (ix2 q k) = a1 (ix2 (i 1) k) := h1
  rw [pay_apply]
  unfold Cert.Spec.rowMv
  refine congrArg₂ (· + ·) (congrArg (· * Cert.Spec.c64) (Finset.sum_congr rfl fun k _ => ?_)) h2
  rw [e0 k, e1 k]

/-- The printed index maps, decided over the grid: the vector's window stays at block (0, 0); the matrix's row
    block and the bias's column block are the row output's column block. -/
theorem idx_facts : ∀ t : Fin cfg1.N,
    win1_0.index t (0 : Fin 2) = 0 ∧ win1_0.index t (1 : Fin 2) = 0
    ∧ win1_2.index t (0 : Fin 2) = win1_5.index t (1 : Fin 2) ∧ win1_2.index t (1 : Fin 2) = 0
    ∧ win1_3.index t (0 : Fin 2) = 0 ∧ win1_3.index t (1 : Fin 2) = win1_5.index t (1 : Fin 2)
    ∧ win1_5.index t (0 : Fin 2) = 0 ∧ win1_5.index t (1 : Fin 2) ≤ 3 :=
  (by decide +kernel : ∀ t : Fin grid1.N, _)

/-- Every column block of the row output is some point's. -/
theorem idx_onto : ∀ q : Fin 4, ∃ t : Fin cfg1.N, win1_5.index t = ![0, q.val] :=
  (by decide +kernel : ∀ q : Fin 4, ∃ t : Fin grid1.N, win1_5.index t = ![0, q.val])

/-- What point `t` writes back to the row output is block `t` of `rowMv` of the arrays as the region finds them. -/
theorem flushed_eq (c : Dev nD) (t : Fin cfg1.N) :
    (dat1 (F := Ideal) V c).flushed 5 t = ((cfg1.win 5).blk t).view.read (Elt Ideal)
      (Cert.Spec.rowMv Cert.Spec.c64 (V c main_v0) (V c main_arg5) (V c main_v4)) := by
  show (cfg1.win 5).cut (grid1.coords t) ((dat1 V c).after 5 t) = _
  rw [after1_5]
  unfold out1_5
  rw [View.canon_unit_zero hz]
  simp only [View.ld_unit_zero (S := S1x4096) hz, View.ld_unit_zero (S := S1024x4096) hz, View.ld_unit_zero (S := S1x1024) hz]
  obtain ⟨f00, f01, f20, f21, f30, f31, f50, f51⟩ := idx_facts t
  funext y
  have hy0 : (y 0).val < 1 := (y 0).isLt
  have hy1 : (y 1).val < 1024 := (y 1).isLt
  refine block_eq (V c main_v0) (V c main_arg5) (V c main_v4) (iblk1 V c 0 t) (iblk1 V c 2 t) (iblk1 V c 3 t) y
    (((cfg1.win 5).blk t).view.emb y) (fun k => ?_) (fun k => ?_) ?_
  · refine congrArg (V c main_v0) (funext fun a => Fin.ext ?_)
    match a with
    | ⟨0, _⟩ => show win1_0.index t (0 : Fin 2) * 1 + 1 * (y 0).val = win1_5.index t (0 : Fin 2) * 1 + 1 * (y 0).val; omega
    | ⟨1, _⟩ => show win1_0.index t (1 : Fin 2) * 4096 + 1 * k.val = k.val; omega
  · refine congrArg (V c main_arg5) (funext fun a => Fin.ext ?_)
    match a with
    | ⟨0, _⟩ => show win1_2.index t (0 : Fin 2) * 1024 + 1 * (y 1).val = win1_5.index t (1 : Fin 2) * 1024 + 1 * (y 1).val; omega
    | ⟨1, _⟩ => show win1_2.index t (1 : Fin 2) * 4096 + 1 * k.val = k.val; omega
  · refine congrArg (V c main_v4) (funext fun a => Fin.ext ?_)
    match a with
    | ⟨0, _⟩ => show win1_3.index t (0 : Fin 2) * 1 + 1 * (y 0).val = win1_5.index t (0 : Fin 2) * 1 + 1 * (y 0).val; omega
    | ⟨1, _⟩ => show win1_3.index t (1 : Fin 2) * 1024 + 1 * (y 1).val = win1_5.index t (1 : Fin 2) * 1024 + 1 * (y 1).val; omega

/-- An index of the row output array is in point `t`'s block iff each coordinate is in the block's range. -/
theorem mem_blk (t : Fin cfg1.N) (i : S1x4096.Idx) :
    i ∈ ((cfg1.win 5).blk t).view.set ↔ ∀ a : Fin 2, win1_5.index t a * S1x1024.size a ≤ (i a).val
      ∧ (i a).val < win1_5.index t a * S1x1024.size a + S1x1024.size a := by
  show i ∈ ((View.whole main_v21_0).slice (win1_5.rect t)).set ↔ _
  rw [View.set_slice_whole, Rect.mem_set_unit]
  exact Iff.rfl

/-- The blocks cover the row output array: column `j` is in the block of the point with column block `j / 1024`. -/
theorem cover (i : S1x4096.Idx) :
    ∃ t : Fin cfg1.N, (cfg1.win 5).flush t = true ∧ i ∈ ((cfg1.win 5).blk t).view.set := by
  have hi0 : (i 0).val < 1 := (i 0).isLt
  have hi1 : (i 1).val < 4096 := (i 1).isLt
  obtain ⟨t, ht⟩ := idx_onto ⟨(i 1).val / 1024, by omega⟩
  have q0 : win1_5.index t (0 : Fin 2) = 0 := congrFun ht 0
  have q1 : win1_5.index t (1 : Fin 2) = (i 1).val / 1024 := congrFun ht 1
  refine ⟨t, flush1_5 t, ?_⟩
  rw [mem_blk]
  intro a
  match a with
  | ⟨0, _⟩ => show win1_5.index t (0 : Fin 2) * 1 ≤ (i 0).val ∧ (i 0).val < win1_5.index t (0 : Fin 2) * 1 + 1; omega
  | ⟨1, _⟩ => show win1_5.index t (1 : Fin 2) * 1024 ≤ (i 1).val ∧ (i 1).val < win1_5.index t (1 : Fin 2) * 1024 + 1024; omega

/-- Region 1's first output array: the key as a row vector. -/
theorem arr1_5 (c : Dev nD) :
    (dat1 (F := Ideal) V c).arrAt 5 cfg1.N = Cert.Spec.rowMv Cert.Spec.c64 (V c main_v0) (V c main_arg5) (V c main_v4) :=
  (dat1 (F := Ideal) V c).arrAt_eq_of_cover 5 _ (fun t _ => flushed_eq V c t) cover

end Cert.KernelIdeal.Reg1

end
-- ==== Proof.KReg1b.lean ====
/-
  Region 1, column output: the scaled key as a column vector. Each grid point takes a block of 1024 rows of the
  weight matrix, the whole input column and the matching entries of the pre-scaled bias column, and writes the
  entries (sum over k of W(r, k) * x(k, 0)) * (1/64) + b(r, 0); the four blocks tile the column.
-/
import proofs.«162263_j86105504350522_1_alg».proof.Proof.Gen.KernelIdeal.Frame
import proofs.«162263_j86105504350522_1_alg».proof.Proof.Spec
import proofs.«162263_j86105504350522_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.Reg1b

/-- The body's result block at an index: the weight block's row against the whole vector, scaled by 1/64, plus
    the bias block's entry. -/
private theorem pay_apply (x : Vec Ideal S4096x1 .f32) (W : Vec Ideal S1024x4096 .f32) (b : Vec Ideal S1024x1 .f32)
    (p : Fin 1024) (q : Fin 1) :
    k1_pay3 (F := Ideal) x W b (ix2 p q)
      = (∑ k : Fin 4096, W (ix2 p k) * x (ix2 k q)) * Cert.Spec.c64 + b (ix2 p q) := by
  unfold k1_pay3 k1_pay1
  rw [shapeCast_self]
  refine (congrArg (fun z : EReal => z * Cert.Spec.c64 + b (ix2 p q))
    (Cert.PlainDot.matmul_zero_apply 1024 4096 1 (φ₁ := .bf16) (φ₂ := .bf16) none
      (truncf .bf16 W bitsLt_bf16_f32) (truncf .bf16 x bitsLt_bf16_f32) (ix2 p q))).trans ?_
  rfl

private theorem hz : (![0, 0] : Fin 2 → Nat) = fun _ => 0 := funext fun a => by fin_cases a <;> rfl

/-- One entry of the result block is the entry of the scaled product plus bias that the whole arrays give, once
    each block entry read is the array entry at the matching row. -/
private theorem block_entry (x : Cert.Spec.Col) (W : Cert.Spec.Mat) (b : Cert.Spec.Col)
    (xb : Vec Ideal S4096x1 .f32) (Wb : Vec Ideal S1024x4096 .f32) (bb : Vec Ideal S1024x1 .f32)
    (p : Fin 1024) (q : Fin 1) (i : Cert.Spec.SCol.Idx)
    (hx : ∀ k : Fin 4096, xb (ix2 k q) = x (ix2 k (i 1)))
    (hW : ∀ k : Fin 4096, Wb (ix2 p k) = W (ix2 (i 0) k))
    (hb : bb (ix2 p q) = b i) :
    k1_pay3 (F := Ideal) xb Wb bb (ix2 p q) = Cert.Spec.colMv Cert.Spec.c64 x W b i := by
  have hs : (∑ k : Fin 4096, Wb (ix2 p k) * xb (ix2 k q)) = ∑ k : Fin 4096, W (ix2 (i 0) k) * x (ix2 k (i 1)) :=
    Finset.sum_congr rfl fun k _ => by rw [hW k, hx k]
  rw [pay_apply, hs, hb]
  rfl

/-- The printed index maps over the four grid points: the vector's window stays at block 0, the weight's and the
    bias's row blocks move with the output's, and every second block index is 0. -/
private theorem idx_facts : ∀ t : Fin cfg1.N,
    win1_1.index t (0 : Fin 2) = 0 ∧ win1_1.index t (1 : Fin 2) = 0
    ∧ win1_2.index t (0 : Fin 2) = win1_6.index t (0 : Fin 2) ∧ win1_2.index t (1 : Fin 2) = 0
    ∧ win1_4.index t (0 : Fin 2) = win1_6.index t (0 : Fin 2) ∧ win1_4.index t (1 : Fin 2) = 0
    ∧ win1_6.index t (0 : Fin 2) ≤ 3 ∧ win1_6.index t (1 : Fin 2) = 0 :=
  (by decide +kernel : ∀ t : Fin grid1.N, _)

/-- Every row block of the output is some point's. -/
private theorem idx_onto : ∀ q0 : Fin 4, ∃ t : Fin cfg1.N, win1_6.index t = ![q0.val, 0] :=
  (by decide +kernel : ∀ q0 : Fin 4, ∃ t : Fin grid1.N, win1_6.index t = ![q0.val, 0])

/-- An index of the array is in point `t`'s block iff each coordinate is in the block's range on its axis. -/
private theorem mem_blk (t : Fin cfg1.N) (i : S4096x1.Idx) :
    i ∈ ((cfg1.win 6).blk t).view.set ↔ ∀ a : Fin 2, win1_6.index t a * S1024x1.size a ≤ (i a).val
      ∧ (i a).val < win1_6.index t a * S1024x1.size a + S1024x1.size a := by
  show i ∈ ((View.whole main_v21_1).slice (win1_6.rect t)).set ↔ _
  rw [View.set_slice_whole, Rect.mem_set_unit]
  exact Iff.rfl

/-- The four row blocks fill the column: row `r` lies in the block of the point whose block index is `r / 1024`. -/
private theorem cover (i : S4096x1.Idx) :
    ∃ t : Fin cfg1.N, (cfg1.win 6).flush t = true ∧ i ∈ ((cfg1.win 6).blk t).view.set := by
  have hi0 : (i 0).val < 4096 := (i 0).isLt
  have hi1 : (i 1).val < 1 := (i 1).isLt
  obtain ⟨t, ht⟩ := idx_onto ⟨(i 0).val / 1024, by omega⟩
  have q0 : win1_6.index t (0 : Fin 2) = (i 0).val / 1024 := congrFun ht 0
  have q1 : win1_6.index t (1 : Fin 2) = 0 := congrFun ht 1
  refine ⟨t, flush1_6 t, ?_⟩
  rw [mem_blk]
  intro a
  match a with
  | ⟨0, _⟩ =>
    show win1_6.index t (0 : Fin 2) * 1024 ≤ (i 0).val ∧ (i 0).val < win1_6.index t (0 : Fin 2) * 1024 + 1024
    omega
  | ⟨1, _⟩ =>
    show win1_6.index t (1 : Fin 2) * 1 ≤ (i 1).val ∧ (i 1).val < win1_6.index t (1 : Fin 2) * 1 + 1
    omega

variable (V : (c : Dev nD) → (b : Ref sig .tc) → Buf (Elt Ideal) ((c : Thread nD τ).loc b))

/-- What point `t` writes back is block `t` of the scaled product plus bias of the whole arrays. -/
private theorem flushed_eq (c : Dev nD) (t : Fin cfg1.N) :
    (dat1 (F := Ideal) V c).flushed 6 t = ((cfg1.win 6).blk t).view.read (Elt Ideal)
      (Cert.Spec.colMv Cert.Spec.c64 (V c main_arg0) (V c main_arg5) (V c main_v6)) := by
  show (cfg1.win 6).cut (grid1.coords t) ((dat1 (F := Ideal) V c).after 6 t) = _
  rw [after1_6]
  unfold out1_6
  rw [View.canon_unit_zero hz]
  simp only [View.ld_unit_zero (S := S4096x1) hz, View.ld_unit_zero (S := S1024x4096) hz, View.ld_unit_zero (S := S1024x1) hz]
  obtain ⟨e0, e1, e2, e3, e4, e5, e6, e7⟩ := idx_facts t
  funext y
  obtain ⟨p, q, rfl⟩ : ∃ p q, y = ix2 p q := ⟨y 0, y 1, eq_ix2 y⟩
  unfold iblk1
  dsimp only
  refine block_entry (V c main_arg0) (V c main_arg5) (V c main_v6) _ _ _ p q _
    (fun k => congrArg (V c main_arg0) ?_) (fun k => congrArg (V c main_arg5) ?_) (congrArg (V c main_v6) ?_)
  · funext a; apply Fin.ext
    match a with
    | ⟨0, _⟩ => show win1_1.index t (0 : Fin 2) * 4096 + 1 * k.val = k.val; omega
    | ⟨1, _⟩ => show win1_1.index t (1 : Fin 2) * 1 + 1 * q.val = win1_6.index t (1 : Fin 2) * 1 + 1 * q.val; omega
  · funext a; apply Fin.ext
    match a with
    | ⟨0, _⟩ => show win1_2.index t (0 : Fin 2) * 1024 + 1 * p.val = win1_6.index t (0 : Fin 2) * 1024 + 1 * p.val; omega
    | ⟨1, _⟩ => show win1_2.index t (1 : Fin 2) * 4096 + 1 * k.val = k.val; omega
  · funext a; apply Fin.ext
    match a with
    | ⟨0, _⟩ => show win1_4.index t (0 : Fin 2) * 1024 + 1 * p.val = win1_6.index t (0 : Fin 2) * 1024 + 1 * p.val; omega
    | ⟨1, _⟩ => show win1_4.index t (1 : Fin 2) * 1 + 1 * q.val = win1_6.index t (1 : Fin 2) * 1 + 1 * q.val; omega

/-- Region 1's second output array: the key as a column vector. -/
theorem arr1_6 (c : Dev nD) :
    (dat1 (F := Ideal) V c).arrAt 6 cfg1.N = Cert.Spec.colMv Cert.Spec.c64 (V c main_arg0) (V c main_arg5) (V c main_v6) :=
  (dat1 (F := Ideal) V c).arrAt_eq_of_cover 6
    (Cert.Spec.colMv Cert.Spec.c64 (V c main_arg0) (V c main_arg5) (V c main_v6))
    (fun t _ => flushed_eq V c t) cover

end Cert.KernelIdeal.Reg1b

end
-- ==== Proof.KReg2.lean ====
/-
  Region 2: the value as a column vector. Each grid point takes a block of 1024 rows of the weight matrix, the
  whole input column and the matching bias entries, and writes (sum over k of W(r, k) * x(k, 0)) * 1 + b(r, 0);
  the four blocks tile the column.
-/
import proofs.«162263_j86105504350522_1_alg».proof.Proof.Gen.KernelIdeal.Frame
import proofs.«162263_j86105504350522_1_alg».proof.Proof.Spec
import proofs.«162263_j86105504350522_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.Reg2

variable (V : (c : Dev nD) → (b : Ref sig .tc) → Buf (Elt Ideal) ((c : Thread nD τ).loc b))

private theorem hz : (![0, 0] : Fin 2 → Nat) = fun _ => 0 := funext fun a => by fin_cases a <;> rfl

/-- The region's arithmetic at one entry of a block: the row of the matrix block against the whole vector,
    times the word of 1, plus the bias entry. -/
private theorem pay_apply (x0 : Vec Ideal S4096x1 .f32) (x1 : Vec Ideal S1024x4096 .f32) (x2 : Vec Ideal S1024x1 .f32)
    (p : Fin 1024) (q : Fin 1) :
    k2_pay1 (F := Ideal) x0 x1 x2 (ix2 p q)
      = (∑ k : Fin 4096, x1 (ix2 p k) * x0 (ix2 k q)) * Cert.Spec.one + x2 (ix2 p q) := by
  unfold k2_pay1
  show FloatOps.matmul (DotDims.plain 1024 4096 1) none
        (truncf .bf16 x1 bitsLt_bf16_f32 : FVec Ideal S1024x4096 .bf16)
        (truncf .bf16 x0 bitsLt_bf16_f32 : FVec Ideal S4096x1 .bf16)
        (constant S1024x1 .f32 0x00000000#32) (ix2 p q) * Cert.Spec.one + x2 (ix2 p q) = _
  rw [Cert.PlainDot.matmul_zero_apply 1024 4096 1 (φ₁ := .bf16) (φ₂ := .bf16)]
  rfl

/-- One entry of the result block is the entry of the whole column the block lands on, once each block entry
    the arithmetic reads is known to be the corresponding array entry: the matrix block holds whole rows and the
    vector is held whole, so the two sums over the contracted axis agree term by term. -/
private theorem block_apply (a0 : Cert.Spec.Col) (W : Cert.Spec.Mat) (b : Cert.Spec.Col)
    (x0 : Vec Ideal S4096x1 .f32) (x1 : Vec Ideal S1024x4096 .f32) (x2 : Vec Ideal S1024x1 .f32)
    (p : Fin 1024) (q : Fin 1) (j : Cert.Spec.SCol.Idx)
    (h0 : ∀ k : Fin 4096, x0 (ix2 k q) = a0 (ix2 k (j 1)))
    (h1 : ∀ k : Fin 4096, x1 (ix2 p k) = W (ix2 (j 0) k))
    (h2 : x2 (ix2 p q) = b j) :
    k2_pay1 (F := Ideal) x0 x1 x2 (ix2 p q) = Cert.Spec.colMv Cert.Spec.one a0 W b j := by
  rw [pay_apply, h2]
  show _ = (∑ k : Fin 4096, W (ix2 (j 0) k) * a0 (ix2 k (j 1))) * Cert.Spec.one + b j
  congr 2
  exact Finset.sum_congr rfl fun k _ => by rw [h0 k, h1 k]

/-- The printed index maps over the four grid points: the vector's window stays at block 0, the matrix's and the
    bias's row blocks move with the output's, and every column block index is 0. -/
private theorem idx_facts : ∀ t : Fin cfg2.N,
    win2_0.index t (0 : Fin 2) = 0 ∧ win2_0.index t (1 : Fin 2) = 0
    ∧ win2_1.index t (0 : Fin 2) = win2_3.index t (0 : Fin 2) ∧ win2_1.index t (1 : Fin 2) = 0
    ∧ win2_2.index t (0 : Fin 2) = win2_3.index t (0 : Fin 2) ∧ win2_2.index t (1 : Fin 2) = 0
    ∧ win2_3.index t (0 : Fin 2) ≤ 3 ∧ win2_3.index t (1 : Fin 2) = 0 :=
  (by decide +kernel : ∀ t : Fin grid2.N, _)

/-- Every row block of the output is some point's. -/
private theorem idx_onto : ∀ q0 : Fin 4, ∃ t : Fin cfg2.N, win2_3.index t = ![q0.val, 0] :=
  (by decide +kernel : ∀ q0 : Fin 4, ∃ t : Fin grid2.N, win2_3.index t = ![q0.val, 0])

/-- What point `t` writes back is block `t` of the whole column. -/
private theorem flushed_eq (c : Dev nD) (t : Fin cfg2.N) :
    (dat2 (F := Ideal) V c).flushed 3 t = ((cfg2.win 3).blk t).view.read (Elt Ideal)
      (Cert.Spec.colMv Cert.Spec.one (V c main_arg0) (V c main_arg7) (V c main_arg8)) := by
  show (cfg2.win 3).cut (grid2.coords t) ((dat2 V c).after 3 t) = _
  rw [after2_3]
  unfold out2_3
  rw [View.canon_unit_zero hz]
  simp only [View.ld_unit_zero (S := S4096x1) hz, View.ld_unit_zero (S := S1024x4096) hz, View.ld_unit_zero (S := S1024x1) hz]
  obtain ⟨e0, e1, e2, e3, e4, e5, e6, e7⟩ := idx_facts t
  funext y
  obtain ⟨p, q, rfl⟩ : ∃ (p : Fin 1024) (q : Fin 1), y = ix2 p q := ⟨y 0, y 1, eq_ix2 y⟩
  have hp : p.val < 1024 := p.isLt
  have hq : q.val < 1 := q.isLt
  unfold iblk2
  dsimp only
  refine block_apply (V c main_arg0) (V c main_arg7) (V c main_arg8) _ _ _ p q
    (((cfg2.win 3).blk t).view.emb (ix2 p q)) (fun k => ?_) (fun k => ?_) ?_
  · refine congrArg (V c main_arg0) (funext fun a => Fin.ext ?_)
    match a with
    | ⟨0, _⟩ => show win2_0.index t (0 : Fin 2) * 4096 + 1 * k.val = k.val; omega
    | ⟨1, _⟩ => show win2_0.index t (1 : Fin 2) * 1 + 1 * q.val = win2_3.index t (1 : Fin 2) * 1 + 1 * q.val; omega
  · refine congrArg (V c main_arg7) (funext fun a => Fin.ext ?_)
    match a with
    | ⟨0, _⟩ => show win2_1.index t (0 : Fin 2) * 1024 + 1 * p.val = win2_3.index t (0 : Fin 2) * 1024 + 1 * p.val; omega
    | ⟨1, _⟩ => show win2_1.index t (1 : Fin 2) * 4096 + 1 * k.val = k.val; omega
  · refine congrArg (V c main_arg8) (funext fun a => Fin.ext ?_)
    match a with
    | ⟨0, _⟩ => show win2_2.index t (0 : Fin 2) * 1024 + 1 * p.val = win2_3.index t (0 : Fin 2) * 1024 + 1 * p.val; omega
    | ⟨1, _⟩ => show win2_2.index t (1 : Fin 2) * 1 + 1 * q.val = win2_3.index t (1 : Fin 2) * 1 + 1 * q.val; omega

/-- An index of the column is in point `t`'s block iff each coordinate is in the block's range on its axis. -/
private theorem mem_blk (t : Fin cfg2.N) (i : S4096x1.Idx) :
    i ∈ ((cfg2.win 3).blk t).view.set ↔ ∀ a : Fin 2, win2_3.index t a * S1024x1.size a ≤ (i a).val ∧ (i a).val < win2_3.index t a * S1024x1.size a + S1024x1.size a := by
  show i ∈ ((View.whole main_v22).slice (win2_3.rect t)).set ↔ _
  rw [View.set_slice_whole, Rect.mem_set_unit]
  exact Iff.rfl

/-- The four row blocks tile the column: row `r` is in the block of the point whose block index is `r / 1024`. -/
private theorem cover (i : S4096x1.Idx) :
    ∃ t : Fin cfg2.N, (cfg2.win 3).flush t = true ∧ i ∈ ((cfg2.win 3).blk t).view.set := by
  have hi0 : (i 0).val < 4096 := (i 0).isLt
  have hi1 : (i 1).val < 1 := (i 1).isLt
  obtain ⟨t, ht⟩ := idx_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1 ≤ (i 1).val ∧ (i 1).val < win2_3.index t (1 : Fin 2) * 1 + 1; omega

/-- What region 2 leaves in its output array: the value as a column vector. -/
theorem arr2 (c : Dev nD) :
    (dat2 (F := Ideal) V c).arrAt 3 cfg2.N = Cert.Spec.colMv Cert.Spec.one (V c main_arg0) (V c main_arg7) (V c main_arg8) :=
  (dat2 (F := Ideal) V c).arrAt_eq_of_cover 3 (Cert.Spec.colMv Cert.Spec.one (V c main_arg0) (V c main_arg7) (V c main_arg8))
    (fun t _ => flushed_eq V c t) cover

end Cert.KernelIdeal.Reg2

end
-- ==== Proof.KReg3.lean ====
/-
  Region 3: the output gate as a column vector: the logistic function of
  (sum over k of W(r, k) * x(k, 0)) * 1 + b(r, 0), written in four blocks of 1024 rows that tile the column.
-/
import proofs.«162263_j86105504350522_1_alg».proof.Proof.Gen.KernelIdeal.Frame
import proofs.«162263_j86105504350522_1_alg».proof.Proof.Spec
import proofs.«162263_j86105504350522_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.Reg3

variable (V : (c : Dev nD) → (b : Ref sig .tc) → Buf (Elt Ideal) ((c : Thread nD τ).loc b))

private theorem hz : (![0, 0] : Fin 2 → Nat) = fun _ => 0 := funext fun a => by fin_cases a <;> rfl

/-- The region's arithmetic at one entry of a block: the logistic function of the row of the matrix block against
    the whole vector, times the word of 1, plus the bias entry. -/
private theorem pay_apply (x0 : Vec Ideal S4096x1 .f32) (x1 : Vec Ideal S1024x4096 .f32) (x2 : Vec Ideal S1024x1 .f32)
    (p : Fin 1024) (q : Fin 1) :
    k3_pay1 (F := Ideal) x0 x1 x2 (ix2 p q)
      = Ideal.logistic ((∑ k : Fin 4096, x1 (ix2 p k) * x0 (ix2 k q)) * Cert.Spec.one + x2 (ix2 p q)) := by
  unfold k3_pay1
  show Ideal.logistic (FloatOps.matmul (DotDims.plain 1024 4096 1) none
        (truncf .bf16 x1 bitsLt_bf16_f32 : FVec Ideal S1024x4096 .bf16)
        (truncf .bf16 x0 bitsLt_bf16_f32 : FVec Ideal S4096x1 .bf16)
        (constant S1024x1 .f32 0x00000000#32) (ix2 p q) * Cert.Spec.one + x2 (ix2 p q)) = _
  rw [Cert.PlainDot.matmul_zero_apply 1024 4096 1 (φ₁ := .bf16) (φ₂ := .bf16)]
  rfl

/-- One entry of the result block is the entry of the whole column the block lands on, once each block entry
    the arithmetic reads is known to be the corresponding array entry: the matrix block holds whole rows and the
    vector is held whole, so the two sums over the contracted axis agree term by term. -/
private theorem block_apply (a0 : Cert.Spec.Col) (W : Cert.Spec.Mat) (b : Cert.Spec.Col)
    (x0 : Vec Ideal S4096x1 .f32) (x1 : Vec Ideal S1024x4096 .f32) (x2 : Vec Ideal S1024x1 .f32)
    (p : Fin 1024) (q : Fin 1) (j : Cert.Spec.SCol.Idx)
    (h0 : ∀ k : Fin 4096, x0 (ix2 k q) = a0 (ix2 k (j 1)))
    (h1 : ∀ k : Fin 4096, x1 (ix2 p k) = W (ix2 (j 0) k))
    (h2 : x2 (ix2 p q) = b j) :
    k3_pay1 (F := Ideal) x0 x1 x2 (ix2 p q) = Cert.Spec.colMvSig a0 W b j := by
  rw [pay_apply, h2]
  show _ = Ideal.logistic ((∑ k : Fin 4096, W (ix2 (j 0) k) * a0 (ix2 k (j 1))) * Cert.Spec.one + b j)
  refine congrArg Ideal.logistic ?_
  congr 2
  exact Finset.sum_congr rfl fun k _ => by rw [h0 k, h1 k]

/-- The printed index maps over the four grid points: the vector's window stays at block 0, the matrix's and the
    bias's row blocks move with the output's, and every column block index is 0. -/
private theorem idx_facts : ∀ t : Fin cfg3.N,
    win3_0.index t (0 : Fin 2) = 0 ∧ win3_0.index t (1 : Fin 2) = 0
    ∧ win3_1.index t (0 : Fin 2) = win3_3.index t (0 : Fin 2) ∧ win3_1.index t (1 : Fin 2) = 0
    ∧ win3_2.index t (0 : Fin 2) = win3_3.index t (0 : Fin 2) ∧ win3_2.index t (1 : Fin 2) = 0
    ∧ win3_3.index t (0 : Fin 2) ≤ 3 ∧ win3_3.index t (1 : Fin 2) = 0 :=
  (by decide +kernel : ∀ t : Fin grid3.N, _)

/-- Every row block of the output is some point's. -/
private theorem idx_onto : ∀ q0 : Fin 4, ∃ t : Fin cfg3.N, win3_3.index t = ![q0.val, 0] :=
  (by decide +kernel : ∀ q0 : Fin 4, ∃ t : Fin grid3.N, win3_3.index t = ![q0.val, 0])

/-- What point `t` writes back is block `t` of the whole column. -/
private theorem flushed_eq (c : Dev nD) (t : Fin cfg3.N) :
    (dat3 (F := Ideal) V c).flushed 3 t = ((cfg3.win 3).blk t).view.read (Elt Ideal)
      (Cert.Spec.colMvSig (V c main_arg0) (V c main_arg13) (V c main_arg14)) := by
  show (cfg3.win 3).cut (grid3.coords t) ((dat3 V c).after 3 t) = _
  rw [after3_3]
  unfold out3_3
  rw [View.canon_unit_zero hz]
  simp only [View.ld_unit_zero (S := S4096x1) hz, View.ld_unit_zero (S := S1024x4096) hz, View.ld_unit_zero (S := S1024x1) hz]
  obtain ⟨e0, e1, e2, e3, e4, e5, e6, e7⟩ := idx_facts t
  funext y
  obtain ⟨p, q, rfl⟩ : ∃ (p : Fin 1024) (q : Fin 1), y = ix2 p q := ⟨y 0, y 1, eq_ix2 y⟩
  have hp : p.val < 1024 := p.isLt
  have hq : q.val < 1 := q.isLt
  unfold iblk3
  dsimp only
  refine block_apply (V c main_arg0) (V c main_arg13) (V c main_arg14) _ _ _ p q
    (((cfg3.win 3).blk t).view.emb (ix2 p q)) (fun k => ?_) (fun k => ?_) ?_
  · refine congrArg (V c main_arg0) (funext fun a => Fin.ext ?_)
    match a with
    | ⟨0, _⟩ => show win3_0.index t (0 : Fin 2) * 4096 + 1 * k.val = k.val; omega
    | ⟨1, _⟩ => show win3_0.index t (1 : Fin 2) * 1 + 1 * q.val = win3_3.index t (1 : Fin 2) * 1 + 1 * q.val; omega
  · refine congrArg (V c main_arg13) (funext fun a => Fin.ext ?_)
    match a with
    | ⟨0, _⟩ => show win3_1.index t (0 : Fin 2) * 1024 + 1 * p.val = win3_3.index t (0 : Fin 2) * 1024 + 1 * p.val; omega
    | ⟨1, _⟩ => show win3_1.index t (1 : Fin 2) * 4096 + 1 * k.val = k.val; omega
  · refine congrArg (V c main_arg14) (funext fun a => Fin.ext ?_)
    match a with
    | ⟨0, _⟩ => show win3_2.index t (0 : Fin 2) * 1024 + 1 * p.val = win3_3.index t (0 : Fin 2) * 1024 + 1 * p.val; omega
    | ⟨1, _⟩ => show win3_2.index t (1 : Fin 2) * 1 + 1 * q.val = win3_3.index t (1 : Fin 2) * 1 + 1 * q.val; omega

/-- An index of the column is in point `t`'s block iff each coordinate is in the block's range on its axis. -/
private theorem mem_blk (t : Fin cfg3.N) (i : S4096x1.Idx) :
    i ∈ ((cfg3.win 3).blk t).view.set ↔ ∀ a : Fin 2, win3_3.index t a * S1024x1.size a ≤ (i a).val ∧ (i a).val < win3_3.index t a * S1024x1.size a + S1024x1.size a := by
  show i ∈ ((View.whole main_v23).slice (win3_3.rect t)).set ↔ _
  rw [View.set_slice_whole, Rect.mem_set_unit]
  exact Iff.rfl

/-- The four row blocks tile the column: row `r` is in the block of the point whose block index is `r / 1024`. -/
private theorem cover (i : S4096x1.Idx) :
    ∃ t : Fin cfg3.N, (cfg3.win 3).flush t = true ∧ i ∈ ((cfg3.win 3).blk t).view.set := by
  have hi0 : (i 0).val < 4096 := (i 0).isLt
  have hi1 : (i 1).val < 1 := (i 1).isLt
  obtain ⟨t, ht⟩ := idx_onto ⟨(i 0).val / 1024, by omega⟩
  have q0 : win3_3.index t (0 : Fin 2) = (i 0).val / 1024 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 1 ≤ (i 1).val ∧ (i 1).val < win3_3.index t (1 : Fin 2) * 1 + 1; omega

/-- What region 3 leaves in its output array: the output gate as a column vector. -/
theorem arr3 (c : Dev nD) :
    (dat3 (F := Ideal) V c).arrAt 3 cfg3.N = Cert.Spec.colMvSig (V c main_arg0) (V c main_arg13) (V c main_arg14) :=
  (dat3 (F := Ideal) V c).arrAt_eq_of_cover 3 (Cert.Spec.colMvSig (V c main_arg0) (V c main_arg13) (V c main_arg14))
    (fun t _ => flushed_eq V c t) cover

end Cert.KernelIdeal.Reg3

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.KReg4.lean ====
/-
  Region 4: the memory update, the normaliser update and the row sums of the updated memory against the query.
  Each of the eight grid points takes 512 rows of the old memory, of the value, of the old normaliser and of the key
  column, the whole key and query rows and the two scalar gates, and writes 512 rows of
  C(i, j) = f * C'(i, j) + g * (v(i) * k(j)), of n(i) = f * n'(i) + g * k(i) and of the sums over j of C(i, j) * q(j);
  a block holds whole rows, so each sum runs over the same 4096 columns as in the whole array, and the eight
  blocks tile each output.
-/
import proofs.«162263_j86105504350522_1_alg».proof.Proof.Gen.KernelIdeal.Frame
import proofs.«162263_j86105504350522_1_alg».proof.Proof.Spec
import proofs.«162263_j86105504350522_1_alg».proof.Proof.LibPlainDot
import proofs.«162263_j86105504350522_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.Reg4

variable (V : (c : Dev nD) → (b : Ref sig .tc) → Buf (Elt Ideal) ((c : Thread nD τ).loc b))

/-- The gate scalar read out of its one-entry block. -/
private theorem pay1_eq (v0 : Vec Ideal S1x1 .f32) : k4_pay1 (F := Ideal) v0 = v0 (ix2 0 0) := by
  unfold k4_pay1 extractAt
  exact congrArg v0 (funext fun a => by match a with | ⟨0, _⟩ => rfl | ⟨1, _⟩ => rfl)

private theorem pay2_eq (v2 : Vec Ideal S1x1 .f32) : k4_pay2 (F := Ideal) v2 = v2 (ix2 0 0) := by
  unfold k4_pay2 extractAt
  exact congrArg v2 (funext fun a => by match a with | ⟨0, _⟩ => rfl | ⟨1, _⟩ => rfl)

/-- The normaliser's block at a row: the old entry scaled by the forget gate plus the key entry scaled by the input gate. -/
private theorem pay3_apply (v0 v2 : Vec Ideal S1x1 .f32) (v4 v12 : Vec Ideal S512x1 .f32) (p : Fin 512) (q : Fin 1) :
    k4_pay3 (F := Ideal) v0 v2 v4 v12 (ix2 p q) = v2 (ix2 0 0) * v12 (ix2 p q) + v0 (ix2 0 0) * v4 (ix2 p q) := by
  unfold k4_pay3
  rw [shapeCast_self]
  show k4_pay2 v2 * v12 (ix2 p q) + k4_pay1 v0 * v4 (ix2 p q) = _
  rw [pay1_eq, pay2_eq]

/-- The memory's block at an entry. -/
private theorem pay4_apply (v0 v2 : Vec Ideal S1x1 .f32) (v6 : Vec Ideal S1x4096 .f32) (v10 : Vec Ideal S512x1 .f32)
    (v19 : Vec Ideal S512x4096 .f32) (p : Fin 512) (q : Fin 4096) :
    k4_pay4 (F := Ideal) v0 v2 v6 v10 v19 (ix2 p q)
      = v2 (ix2 0 0) * v19 (ix2 p q) + v0 (ix2 0 0) * (v10 (ix2 p 0) * v6 (ix2 0 q)) := by
  unfold k4_pay4
  rw [shapeCast_self, shapeCast_self]
  show k4_pay2 v2 * v19 (ix2 p q) + k4_pay1 v0 * (broadcastTo S512x4096 v10 broadcasts_S512x1_S512x4096 (ix2 p q)
      * broadcastTo S512x4096 v6 broadcasts_S1x4096_S512x4096 (ix2 p q)) = _
  rw [pay1_eq, pay2_eq, Cert.Keepdims.broadcastTo_a1_ab_apply, broadcastTo_1b_ab_apply]

/-- The row sums' block at a row. -/
private theorem pay5_apply (v0 v2 : Vec Ideal S1x1 .f32) (v6 v8 : Vec Ideal S1x4096 .f32) (v10 : Vec Ideal S512x1 .f32)
    (v19 : Vec Ideal S512x4096 .f32) (p : Fin 512) (q : Fin 1) :
    k4_pay5 (F := Ideal) v0 v2 v6 v8 v10 v19 (ix2 p q)
      = ∑ k : Fin 4096, (v2 (ix2 0 0) * v19 (ix2 p k) + v0 (ix2 0 0) * (v10 (ix2 p 0) * v6 (ix2 0 k))) * v8 (ix2 0 k) := by
  unfold k4_pay5
  rw [shapeCast_self]
  refine (Cert.Keepdims.shapeCast_a_a1_apply _ shapeCasts_S512_S512x1 p q).trans ?_
  refine (Cert.Keepdims.sum_axis1_apply (φ := .f32) _ _ reduces_S512x4096_S512 _ _ p).trans ?_
  refine Finset.sum_congr rfl fun k _ => ?_
  show k4_pay4 v0 v2 v6 v10 v19 (ix2 p k) * broadcastTo S512x4096 v8 broadcasts_S1x4096_S512x4096 (ix2 p k) = _
  rw [pay4_apply, broadcastTo_1b_ab_apply]

theorem hz : (![0, 0] : Fin 2 → Nat) = fun _ => 0 := funext fun a => by fin_cases a <;> rfl

/-- The printed index maps over the grid: a row-blocked window's block row is the point's number, its block column 0;
    a whole-array window's block is (0, 0). -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = t.val ∧ win4_8.index t (1 : Fin 2) = 0)
    ∧ (win4_9.index t (0 : Fin 2) = t.val ∧ win4_9.index t (1 : Fin 2) = 0)
    ∧ (win4_10.index t (0 : Fin 2) = t.val ∧ win4_10.index t (1 : Fin 2) = 0) :=
  (by decide +kernel : ∀ t : Fin grid4.N, _)

/-- The normaliser's block entry, from entries of the arrays. -/
private theorem blk9 (g f : Cert.Spec.Sc) (np kc : Cert.Spec.Col) (x6 x7 : Vec Ideal S1x1 .f32) (x3 x2 : Vec Ideal S512x1 .f32)
    (p : Fin 512) (q : Fin 1) (r : Cert.Spec.SCol.Idx)
    (h6 : x6 (ix2 0 0) = g (ix2 0 0)) (h7 : x7 (ix2 0 0) = f (ix2 0 0))
    (h3 : x3 (ix2 p q) = kc r) (h2 : x2 (ix2 p q) = np r) :
    k4_pay3 (F := Ideal) x6 x7 x3 x2 (ix2 p q) = Cert.Spec.updN g f np kc r := by
  rw [pay3_apply, h6, h7, h3, h2]; rfl

theorem flushed9_eq (c : Dev nD) (t : Fin cfg4.N) :
    (dat4 (F := Ideal) V c).flushed 9 t = ((cfg4.win 9).blk t).view.read (Elt Ideal)
      (Cert.Spec.updN (V c main_v10) (V c main_v19) (V c main_arg2) (V c main_v21_1)) := by
  show (cfg4.win 9).cut (grid4.coords t) ((dat4 V c).after 9 t) = _
  rw [after4_9]
  unfold out4_9
  rw [View.canon_unit_zero hz]
  simp only [View.ld_unit_zero (S := S512x1) hz, View.ld_unit_zero (S := S1x1) hz]
  obtain ⟨e0, e1, e2, e3, e4, e5, e6, e7, e8, e9, e10⟩ := idx_facts t
  funext y
  obtain ⟨p, q, rfl⟩ : ∃ p q, y = ix2 p q := ⟨y 0, y 1, eq_ix2 y⟩
  unfold iblk4
  refine blk9 _ _ _ _ _ _ _ _ p q _ ?_ ?_ ?_ ?_
  · rw [View.read_apply]
    refine congrArg (V c main_v10) (funext fun a => Fin.ext ?_)
    match a with
    | ⟨0, _⟩ => show win4_6.index t (0 : Fin 2) * 1 + 1 * 0 = 0; omega
    | ⟨1, _⟩ => show win4_6.index t (1 : Fin 2) * 1 + 1 * 0 = 0; omega
  · rw [View.read_apply]
    refine congrArg (V c main_v19) (funext fun a => Fin.ext ?_)
    match a with
    | ⟨0, _⟩ => show win4_7.index t (0 : Fin 2) * 1 + 1 * 0 = 0; omega
    | ⟨1, _⟩ => show win4_7.index t (1 : Fin 2) * 1 + 1 * 0 = 0; omega
  · rw [View.read_apply]
    refine congrArg (V c main_v21_1) (funext fun a => Fin.ext ?_)
    match a with
    | ⟨0, _⟩ => show win4_3.index t (0 : Fin 2) * 512 + 1 * p.val = win4_9.index t (0 : Fin 2) * 512 + 1 * p.val; omega
    | ⟨1, _⟩ => show win4_3.index t (1 : Fin 2) * 1 + 1 * q.val = win4_9.index t (1 : Fin 2) * 1 + 1 * q.val; omega
  · rw [View.read_apply]
    refine congrArg (V c main_arg2) (funext fun a => Fin.ext ?_)
    match a with
    | ⟨0, _⟩ => show win4_2.index t (0 : Fin 2) * 512 + 1 * p.val = win4_9.index t (0 : Fin 2) * 512 + 1 * p.val; omega
    | ⟨1, _⟩ => show win4_2.index t (1 : Fin 2) * 1 + 1 * q.val = win4_9.index t (1 : Fin 2) * 1 + 1 * q.val; omega

/-- Every block row is some point's. -/
theorem row_onto : ∀ b : Fin 8, ∃ t : Fin cfg4.N, t.val = b.val :=
  (by decide +kernel : ∀ b : Fin 8, ∃ t : Fin grid4.N, t.val = b.val)

/-- A row of the normaliser is in a point's block iff it is among the point's 512 rows. -/
theorem mem_blk9 (t : Fin cfg4.N) (i : S4096x1.Idx) :
    i ∈ ((cfg4.win 9).blk t).view.set ↔ ∀ a : Fin 2, win4_9.index t a * S512x1.size a ≤ (i a).val ∧ (i a).val < win4_9.index t a * S512x1.size a + S512x1.size a := by
  show i ∈ ((View.whole main_v24_1).slice (win4_9.rect t)).set ↔ _
  rw [View.set_slice_whole, Rect.mem_set_unit]
  exact Iff.rfl

/-- Row r is written back by point r / 512. -/
theorem cover9 (i : S4096x1.Idx) : ∃ t : Fin cfg4.N, (cfg4.win 9).flush t = true ∧ i ∈ ((cfg4.win 9).blk t).view.set := by
  have hi0 : (i 0).val < 4096 := (i 0).isLt
  have hi1 : (i 1).val < 1 := (i 1).isLt
  obtain ⟨t, ht⟩ := row_onto ⟨(i 0).val / 512, by omega⟩
  have ht' : t.val = (i 0).val / 512 := ht
  obtain ⟨e0, e1, e2, e3, e4, e5, e6, e7, e8, e9, e10⟩ := idx_facts t
  refine ⟨t, flush4_9 t, ?_⟩
  rw [mem_blk9]
  intro a
  match a with
  | ⟨0, _⟩ => show win4_9.index t (0 : Fin 2) * 512 ≤ (i 0).val ∧ (i 0).val < win4_9.index t (0 : Fin 2) * 512 + 512; omega
  | ⟨1, _⟩ => show win4_9.index t (1 : Fin 2) * 1 ≤ (i 1).val ∧ (i 1).val < win4_9.index t (1 : Fin 2) * 1 + 1; omega

/-- The memory's block entry, from entries of the arrays. -/
private theorem blk8 (g f : Cert.Spec.Sc) (Cp : Cert.Spec.Mat) (v : Cert.Spec.Col) (kr : Cert.Spec.Row)
    (x6 x7 : Vec Ideal S1x1 .f32) (x4 : Vec Ideal S1x4096 .f32) (x1 : Vec Ideal S512x1 .f32) (x0 : Vec Ideal S512x4096 .f32)
    (p : Fin 512) (q : Fin 4096) (j : Cert.Spec.SMat.Idx)
    (h6 : x6 (ix2 0 0) = g (ix2 0 0)) (h7 : x7 (ix2 0 0) = f (ix2 0 0))
    (h4 : x4 (ix2 0 q) = kr (ix2 0 (j 1))) (h1 : x1 (ix2 p 0) = v (ix2 (j 0) 0)) (h0 : x0 (ix2 p q) = Cp j) :
    k4_pay4 (F := Ideal) x6 x7 x4 x1 x0 (ix2 p q) = Cert.Spec.updC g f Cp v kr j := by
  rw [pay4_apply, h6, h7, h4, h1, h0]; rfl

theorem flushed8_eq (c : Dev nD) (t : Fin cfg4.N) :
    (dat4 (F := Ideal) V c).flushed 8 t = ((cfg4.win 8).blk t).view.read (Elt Ideal)
      (Cert.Spec.updC (V c main_v10) (V c main_v19) (V c main_arg1) (V c main_v22) (V c main_v21_0)) := by
  show (cfg4.win 8).cut (grid4.coords t) ((dat4 V c).after 8 t) = _
  rw [after4_8]
  unfold out4_8
  rw [View.canon_unit_zero hz]
  simp only [View.ld_unit_zero (S := S512x4096) hz, View.ld_unit_zero (S := S512x1) hz, View.ld_unit_zero (S := S1x4096) hz,
    View.ld_unit_zero (S := S1x1) hz]
  obtain ⟨e0, e1, e2, e3, e4, e5, e6, e7, e8, e9, e10⟩ := idx_facts t
  funext y
  obtain ⟨p, q, rfl⟩ : ∃ p q, y = ix2 p q := ⟨y 0, y 1, eq_ix2 y⟩
  unfold iblk4
  refine blk8 _ _ _ _ _ _ _ _ _ _ p q _ ?_ ?_ ?_ ?_ ?_
  · rw [View.read_apply]
    refine congrArg (V c main_v10) (funext fun a => Fin.ext ?_)
    match a with
    | ⟨0, _⟩ => show win4_6.index t (0 : Fin 2) * 1 + 1 * 0 = 0; omega
    | ⟨1, _⟩ => show win4_6.index t (1 : Fin 2) * 1 + 1 * 0 = 0; omega
  · rw [View.read_apply]
    refine congrArg (V c main_v19) (funext fun a => Fin.ext ?_)
    match a with
    | ⟨0, _⟩ => show win4_7.index t (0 : Fin 2) * 1 + 1 * 0 = 0; omega
    | ⟨1, _⟩ => show win4_7.index t (1 : Fin 2) * 1 + 1 * 0 = 0; omega
  · rw [View.read_apply]
    refine congrArg (V c main_v21_0) (funext fun a => Fin.ext ?_)
    match a with
    | ⟨0, _⟩ => show win4_4.index t (0 : Fin 2) * 1 + 1 * 0 = 0; omega
    | ⟨1, _⟩ => show win4_4.index t (1 : Fin 2) * 4096 + 1 * q.val = win4_8.index t (1 : Fin 2) * 4096 + 1 * q.val; omega
  · rw [View.read_apply]
    refine congrArg (V c main_v22) (funext fun a => Fin.ext ?_)
    match a with
    | ⟨0, _⟩ => show win4_1.index t (0 : Fin 2) * 512 + 1 * p.val = win4_8.index t (0 : Fin 2) * 512 + 1 * p.val; omega
    | ⟨1, _⟩ => show win4_1.index t (1 : Fin 2) * 1 + 1 * 0 = 0; omega
  · rw [View.read_apply]
    refine congrArg (V c main_arg1) (funext fun a => Fin.ext ?_)
    match a with
    | ⟨0, _⟩ => show win4_0.index t (0 : Fin 2) * 512 + 1 * p.val = win4_8.index t (0 : Fin 2) * 512 + 1 * p.val; omega
    | ⟨1, _⟩ => show win4_0.index t (1 : Fin 2) * 4096 + 1 * q.val = win4_8.index t (1 : Fin 2) * 4096 + 1 * q.val; omega

/-- An entry of the memory is in a point's block iff its row is among the point's 512 rows. -/
theorem mem_blk8 (t : Fin cfg4.N) (i : S4096x4096.Idx) :
    i ∈ ((cfg4.win 8).blk t).view.set ↔ ∀ a : Fin 2, win4_8.index t a * S512x4096.size a ≤ (i a).val ∧ (i a).val < win4_8.index t a * S512x4096.size a + S512x4096.size a := by
  show i ∈ ((View.whole main_v24_0).slice (win4_8.rect t)).set ↔ _
  rw [View.set_slice_whole, Rect.mem_set_unit]
  exact Iff.rfl

/-- Row r is written back by point r / 512. -/
theorem cover8 (i : S4096x4096.Idx) : ∃ t : Fin cfg4.N, (cfg4.win 8).flush t = true ∧ i ∈ ((cfg4.win 8).blk t).view.set := by
  have hi0 : (i 0).val < 4096 := (i 0).isLt
  have hi1 : (i 1).val < 4096 := (i 1).isLt
  obtain ⟨t, ht⟩ := row_onto ⟨(i 0).val / 512, by omega⟩
  have ht' : t.val = (i 0).val / 512 := ht
  obtain ⟨e0, e1, e2, e3, e4, e5, e6, e7, e8, e9, e10⟩ := idx_facts t
  refine ⟨t, flush4_8 t, ?_⟩
  rw [mem_blk8]
  intro a
  match a with
  | ⟨0, _⟩ => show win4_8.index t (0 : Fin 2) * 512 ≤ (i 0).val ∧ (i 0).val < win4_8.index t (0 : Fin 2) * 512 + 512; omega
  | ⟨1, _⟩ => show win4_8.index t (1 : Fin 2) * 4096 ≤ (i 1).val ∧ (i 1).val < win4_8.index t (1 : Fin 2) * 4096 + 4096; omega

/-- The row sums' block entry, from entries of the arrays: the block holds whole rows, so the sum runs over the same columns. -/
private theorem blk10 (g f : Cert.Spec.Sc) (Cp : Cert.Spec.Mat) (v : Cert.Spec.Col) (kr qr : Cert.Spec.Row)
    (x6 x7 : Vec Ideal S1x1 .f32) (x4 x5 : Vec Ideal S1x4096 .f32) (x1 : Vec Ideal S512x1 .f32) (x0 : Vec Ideal S512x4096 .f32)
    (p : Fin 512) (q : Fin 1) (j : Cert.Spec.SCol.Idx)
    (h6 : x6 (ix2 0 0) = g (ix2 0 0)) (h7 : x7 (ix2 0 0) = f (ix2 0 0))
    (h4 : ∀ k : Fin 4096, x4 (ix2 0 k) = kr (ix2 0 k)) (h5 : ∀ k : Fin 4096, x5 (ix2 0 k) = qr (ix2 0 k))
    (h1 : x1 (ix2 p 0) = v (ix2 (j 0) 0)) (h0 : ∀ k : Fin 4096, x0 (ix2 p k) = Cp (ix2 (j 0) k)) :
    k4_pay5 (F := Ideal) x6 x7 x4 x5 x1 x0 (ix2 p q) = Cert.Spec.readH g f Cp v kr qr j := by
  rw [pay5_apply]
  refine Finset.sum_congr rfl fun k _ => ?_
  rw [h6, h7, h4, h5, h1, h0]; rfl

theorem flushed10_eq (c : Dev nD) (t : Fin cfg4.N) :
    (dat4 (F := Ideal) V c).flushed 10 t = ((cfg4.win 10).blk t).view.read (Elt Ideal)
      (Cert.Spec.readH (V c main_v10) (V c main_v19) (V c main_arg1) (V c main_v22) (V c main_v21_0) (V c main_v20)) := by
  show (cfg4.win 10).cut (grid4.coords t) ((dat4 V c).after 10 t) = _
  rw [after4_10]
  unfold out4_10
  rw [View.canon_unit_zero hz]
  simp only [View.ld_unit_zero (S := S512x4096) hz, View.ld_unit_zero (S := S512x1) hz, View.ld_unit_zero (S := S1x4096) hz,
    View.ld_unit_zero (S := S1x1) hz]
  obtain ⟨e0, e1, e2, e3, e4, e5, e6, e7, e8, e9, e10⟩ := idx_facts t
  funext y
  obtain ⟨p, q, rfl⟩ : ∃ p q, y = ix2 p q := ⟨y 0, y 1, eq_ix2 y⟩
  unfold iblk4
  refine blk10 _ _ _ _ _ _ _ _ _ _ _ _ p q _ ?_ ?_ (fun k => ?_) (fun k => ?_) ?_ (fun k => ?_)
  · rw [View.read_apply]
    refine congrArg (V c main_v10) (funext fun a => Fin.ext ?_)
    match a with
    | ⟨0, _⟩ => show win4_6.index t (0 : Fin 2) * 1 + 1 * 0 = 0; omega
    | ⟨1, _⟩ => show win4_6.index t (1 : Fin 2) * 1 + 1 * 0 = 0; omega
  · rw [View.read_apply]
    refine congrArg (V c main_v19) (funext fun a => Fin.ext ?_)
    match a with
    | ⟨0, _⟩ => show win4_7.index t (0 : Fin 2) * 1 + 1 * 0 = 0; omega
    | ⟨1, _⟩ => show win4_7.index t (1 : Fin 2) * 1 + 1 * 0 = 0; omega
  · rw [View.read_apply]
    refine congrArg (V c main_v21_0) (funext fun a => Fin.ext ?_)
    match a with
    | ⟨0, _⟩ => show win4_4.index t (0 : Fin 2) * 1 + 1 * 0 = 0; omega
    | ⟨1, _⟩ => show win4_4.index t (1 : Fin 2) * 4096 + 1 * k.val = k.val; omega
  · rw [View.read_apply]
    refine congrArg (V c main_v20) (funext fun a => Fin.ext ?_)
    match a with
    | ⟨0, _⟩ => show win4_5.index t (0 : Fin 2) * 1 + 1 * 0 = 0; omega
    | ⟨1, _⟩ => show win4_5.index t (1 : Fin 2) * 4096 + 1 * k.val = k.val; omega
  · rw [View.read_apply]
    refine congrArg (V c main_v22) (funext fun a => Fin.ext ?_)
    match a with
    | ⟨0, _⟩ => show win4_1.index t (0 : Fin 2) * 512 + 1 * p.val = win4_10.index t (0 : Fin 2) * 512 + 1 * p.val; omega
    | ⟨1, _⟩ => show win4_1.index t (1 : Fin 2) * 1 + 1 * 0 = 0; omega
  · rw [View.read_apply]
    refine congrArg (V c main_arg1) (funext fun a => Fin.ext ?_)
    match a with
    | ⟨0, _⟩ => show win4_0.index t (0 : Fin 2) * 512 + 1 * p.val = win4_10.index t (0 : Fin 2) * 512 + 1 * p.val; omega
    | ⟨1, _⟩ => show win4_0.index t (1 : Fin 2) * 4096 + 1 * k.val = k.val; omega

/-- A row of the row sums is in a point's block iff it is among the point's 512 rows. -/
theorem mem_blk10 (t : Fin cfg4.N) (i : S4096x1.Idx) :
    i ∈ ((cfg4.win 10).blk t).view.set ↔ ∀ a : Fin 2, win4_10.index t a * S512x1.size a ≤ (i a).val ∧ (i a).val < win4_10.index t a * S512x1.size a + S512x1.size a := by
  show i ∈ ((View.whole main_v24_2).slice (win4_10.rect t)).set ↔ _
  rw [View.set_slice_whole, Rect.mem_set_unit]
  exact Iff.rfl

/-- Row r is written back by point r / 512. -/
theorem cover10 (i : S4096x1.Idx) : ∃ t : Fin cfg4.N, (cfg4.win 10).flush t = true ∧ i ∈ ((cfg4.win 10).blk t).view.set := by
  have hi0 : (i 0).val < 4096 := (i 0).isLt
  have hi1 : (i 1).val < 1 := (i 1).isLt
  obtain ⟨t, ht⟩ := row_onto ⟨(i 0).val / 512, by omega⟩
  have ht' : t.val = (i 0).val / 512 := ht
  obtain ⟨e0, e1, e2, e3, e4, e5, e6, e7, e8, e9, e10⟩ := idx_facts t
  refine ⟨t, flush4_10 t, ?_⟩
  rw [mem_blk10]
  intro a
  match a with
  | ⟨0, _⟩ => show win4_10.index t (0 : Fin 2) * 512 ≤ (i 0).val ∧ (i 0).val < win4_10.index t (0 : Fin 2) * 512 + 512; omega
  | ⟨1, _⟩ => show win4_10.index t (1 : Fin 2) * 1 ≤ (i 1).val ∧ (i 1).val < win4_10.index t (1 : Fin 2) * 1 + 1; omega

/-- Region 4's first output array: the updated memory. -/
theorem arr4_8 (c : Dev nD) :
    (dat4 (F := Ideal) V c).arrAt 8 cfg4.N
      = Cert.Spec.updC (V c main_v10) (V c main_v19) (V c main_arg1) (V c main_v22) (V c main_v21_0) :=
  (dat4 (F := Ideal) V c).arrAt_eq_of_cover 8 _ (fun t _ => flushed8_eq V c t) cover8

/-- Region 4's second output array: the updated normaliser. -/
theorem arr4_9 (c : Dev nD) :
    (dat4 (F := Ideal) V c).arrAt 9 cfg4.N
      = Cert.Spec.updN (V c main_v10) (V c main_v19) (V c main_arg2) (V c main_v21_1) :=
  (dat4 (F := Ideal) V c).arrAt_eq_of_cover 9 _ (fun t _ => flushed9_eq V c t) cover9

/-- Region 4's third output array: the row sums of the updated memory against the query. -/
theorem arr4_10 (c : Dev nD) :
    (dat4 (F := Ideal) V c).arrAt 10 cfg4.N
      = Cert.Spec.readH (V c main_v10) (V c main_v19) (V c main_arg1) (V c main_v22) (V c main_v21_0) (V c main_v20) :=
  (dat4 (F := Ideal) V c).arrAt_eq_of_cover 10 _ (fun t _ => flushed10_eq V c t) cover10

end Cert.KernelIdeal.Reg4

end
-- ==== Proof.KFold.lean ====
/-
  Which arrays each region finds. The program's buffers at each boundary between its segments are a fold from the
  launch memory: a stretch of host operations changes only the buffers it writes, a region only its output arrays.
  Read backwards from a boundary, an argument is still the launch memory's, a buffer of the host prefix still
  holds the prefix's value, and an earlier region's output still holds what that region's write-backs left.
-/
import proofs.«162263_j86105504350522_1_alg».proof.Proof.Gen.KernelIdeal.Frame
import proofs.«162263_j86105504350522_1_alg».proof.Proof.Spec
import proofs.«162263_j86105504350522_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.Fold

variable (m : (ℓ : Loc nD τ sig) → Buf (Elt Ideal) ℓ) (ρ : Dev nD → PrngReg)

/-- No operation of the host stretch before region 0 writes the named buffer, so it still holds its launch
    contents after the stretch. -/
local macro "untouched0 " b:term : tactic => `(tactic| (
  refine StableHlo.after_of_forall_not_mem (b := Proc.devRef .tc $b) _ _ (List.forall_iff_forall_mem.mp ?_)
  simp only [hostOps0, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes,
    StableHlo.binaryIndexed_writes, Finset.mem_singleton]
  repeat' apply And.intro
  all_goals exact StableHlo.devRef_ne_of_ne (by decide)))

/-! Each statement walks the fold backwards from the named boundary: a region that does not hold the buffer among
    its arrays leaves it as entered; a region that reads it through an input window leaves it as entered; a region
    that writes it through an output window leaves the folded write-backs; the first host stretch writes none of
    the program's arguments. -/

/-! ## Region 0's entry -/
theorem V1_arg3 (c : Dev nD) : V1 m ρ c main_arg3 = m ((c : Thread nD τ).loc main_arg3) :=
  calc V1 m ρ c main_arg3
    _ = W1 m ρ c (Proc.devRef .tc main_arg3) := rfl
    _ = W0 m ρ c (Proc.devRef .tc main_arg3) := by untouched0 main_arg3
    _ = m ((c : Thread nD τ).loc main_arg3) := rfl

/-! ## Region 1's entry -/
theorem V2_v0 (c : Dev nD) : V2 m ρ c main_v0 = W1 m ρ c (Proc.devRef .tc main_v0) :=
  calc V2 m ρ c main_v0
    _ = W2 m ρ c (Proc.devRef .tc main_v0) := rfl
    _ = W1 m ρ c (Proc.devRef .tc main_v0) := (W2_arr m ρ c 0).trans (((dat0 (V1 m ρ) c).arrAt_in 0 rfl _).trans (A_eq0 (V1 m ρ) c 0))
theorem V2_arg0 (c : Dev nD) : V2 m ρ c main_arg0 = m ((c : Thread nD τ).loc main_arg0) :=
  calc V2 m ρ c main_arg0
    _ = W2 m ρ c (Proc.devRef .tc main_arg0) := rfl
    _ = W1 m ρ c (Proc.devRef .tc main_arg0) := W2_of_ne m ρ c main_arg0 (by decide)
    _ = W0 m ρ c (Proc.devRef .tc main_arg0) := by untouched0 main_arg0
    _ = m ((c : Thread nD τ).loc main_arg0) := rfl
theorem V2_arg5 (c : Dev nD) : V2 m ρ c main_arg5 = m ((c : Thread nD τ).loc main_arg5) :=
  calc V2 m ρ c main_arg5
    _ = W2 m ρ c (Proc.devRef .tc main_arg5) := rfl
    _ = W1 m ρ c (Proc.devRef .tc main_arg5) := W2_of_ne m ρ c main_arg5 (by decide)
    _ = W0 m ρ c (Proc.devRef .tc main_arg5) := by untouched0 main_arg5
    _ = m ((c : Thread nD τ).loc main_arg5) := rfl
theorem V2_v4 (c : Dev nD) : V2 m ρ c main_v4 = W1 m ρ c (Proc.devRef .tc main_v4) :=
  calc V2 m ρ c main_v4
    _ = W2 m ρ c (Proc.devRef .tc main_v4) := rfl
    _ = W1 m ρ c (Proc.devRef .tc main_v4) := W2_of_ne m ρ c main_v4 (by decide)
theorem V2_v6 (c : Dev nD) : V2 m ρ c main_v6 = W1 m ρ c (Proc.devRef .tc main_v6) :=
  calc V2 m ρ c main_v6
    _ = W2 m ρ c (Proc.devRef .tc main_v6) := rfl
    _ = W1 m ρ c (Proc.devRef .tc main_v6) := W2_of_ne m ρ c main_v6 (by decide)

/-! ## Region 2's entry -/
theorem V3_arg0 (c : Dev nD) : V3 m ρ c main_arg0 = m ((c : Thread nD τ).loc main_arg0) :=
  calc V3 m ρ c main_arg0
    _ = W3 m ρ c (Proc.devRef .tc main_arg0) := rfl
    _ = W2 m ρ c (Proc.devRef .tc main_arg0) := (W3_arr m ρ c 1).trans (((dat1 (V2 m ρ) c).arrAt_in 1 rfl _).trans (A_eq1 (V2 m ρ) c 1))
    _ = W1 m ρ c (Proc.devRef .tc main_arg0) := W2_of_ne m ρ c main_arg0 (by decide)
    _ = W0 m ρ c (Proc.devRef .tc main_arg0) := by untouched0 main_arg0
    _ = m ((c : Thread nD τ).loc main_arg0) := rfl
theorem V3_arg7 (c : Dev nD) : V3 m ρ c main_arg7 = m ((c : Thread nD τ).loc main_arg7) :=
  calc V3 m ρ c main_arg7
    _ = W3 m ρ c (Proc.devRef .tc main_arg7) := rfl
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by untouched0 main_arg7
    _ = m ((c : Thread nD τ).loc main_arg7) := rfl
theorem V3_arg8 (c : Dev nD) : V3 m ρ c main_arg8 = m ((c : Thread nD τ).loc main_arg8) :=
  calc V3 m ρ c main_arg8
    _ = W3 m ρ c (Proc.devRef .tc main_arg8) := rfl
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by untouched0 main_arg8
    _ = m ((c : Thread nD τ).loc main_arg8) := rfl

/-! ## Region 3's entry -/
theorem V4_arg0 (c : Dev nD) : V4 m ρ c main_arg0 = m ((c : Thread nD τ).loc main_arg0) :=
  calc V4 m ρ c main_arg0
    _ = W4 m ρ c (Proc.devRef .tc main_arg0) := rfl
    _ = W3 m ρ c (Proc.devRef .tc main_arg0) := (W4_arr m ρ c 0).trans (((dat2 (V3 m ρ) c).arrAt_in 0 rfl _).trans (A_eq2 (V3 m ρ) c 0))
    _ = W2 m ρ c (Proc.devRef .tc main_arg0) := (W3_arr m ρ c 1).trans (((dat1 (V2 m ρ) c).arrAt_in 1 rfl _).trans (A_eq1 (V2 m ρ) c 1))
    _ = W1 m ρ c (Proc.devRef .tc main_arg0) := W2_of_ne m ρ c main_arg0 (by decide)
    _ = W0 m ρ c (Proc.devRef .tc main_arg0) := by untouched0 main_arg0
    _ = m ((c : Thread nD τ).loc main_arg0) := rfl
theorem V4_arg13 (c : Dev nD) : V4 m ρ c main_arg13 = m ((c : Thread nD τ).loc main_arg13) :=
  calc V4 m ρ c main_arg13
    _ = W4 m ρ c (Proc.devRef .tc main_arg13) := rfl
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by untouched0 main_arg13
    _ = m ((c : Thread nD τ).loc main_arg13) := rfl
theorem V4_arg14 (c : Dev nD) : V4 m ρ c main_arg14 = m ((c : Thread nD τ).loc main_arg14) :=
  calc V4 m ρ c main_arg14
    _ = W4 m ρ c (Proc.devRef .tc main_arg14) := rfl
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := by untouched0 main_arg14
    _ = m ((c : Thread nD τ).loc main_arg14) := rfl

/-! ## Region 4's entry -/
theorem V5_arg1 (c : Dev nD) : V5 m ρ c main_arg1 = m ((c : Thread nD τ).loc main_arg1) :=
  calc V5 m ρ c main_arg1
    _ = W5 m ρ c (Proc.devRef .tc main_arg1) := rfl
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := by untouched0 main_arg1
    _ = m ((c : Thread nD τ).loc main_arg1) := rfl
theorem V5_arg2 (c : Dev nD) : V5 m ρ c main_arg2 = m ((c : Thread nD τ).loc main_arg2) :=
  calc V5 m ρ c main_arg2
    _ = W5 m ρ c (Proc.devRef .tc main_arg2) := rfl
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := by untouched0 main_arg2
    _ = m ((c : Thread nD τ).loc main_arg2) := rfl
theorem V5_v22 (c : Dev nD) : V5 m ρ c main_v22 = (dat2 (V3 m ρ) c).arrAt 3 cfg2.N :=
  calc V5 m ρ c main_v22
    _ = W5 m ρ c (Proc.devRef .tc main_v22) := rfl
    _ = W4 m ρ c (Proc.devRef .tc main_v22) := W5_of_ne m ρ c main_v22 (by decide)
    _ = (dat2 (V3 m ρ) c).arrAt 3 cfg2.N := W4_arr m ρ c 3
theorem V5_v21_1 (c : Dev nD) : V5 m ρ c main_v21_1 = (dat1 (V2 m ρ) c).arrAt 6 cfg1.N :=
  calc V5 m ρ c main_v21_1
    _ = W5 m ρ c (Proc.devRef .tc main_v21_1) := rfl
    _ = W4 m ρ c (Proc.devRef .tc main_v21_1) := W5_of_ne m ρ c main_v21_1 (by decide)
    _ = W3 m ρ c (Proc.devRef .tc main_v21_1) := W4_of_ne m ρ c main_v21_1 (by decide)
    _ = (dat1 (V2 m ρ) c).arrAt 6 cfg1.N := W3_arr m ρ c 6
theorem V5_v21_0 (c : Dev nD) : V5 m ρ c main_v21_0 = (dat1 (V2 m ρ) c).arrAt 5 cfg1.N :=
  calc V5 m ρ c main_v21_0
    _ = W5 m ρ c (Proc.devRef .tc main_v21_0) := rfl
    _ = W4 m ρ c (Proc.devRef .tc main_v21_0) := W5_of_ne m ρ c main_v21_0 (by decide)
    _ = W3 m ρ c (Proc.devRef .tc main_v21_0) := W4_of_ne m ρ c main_v21_0 (by decide)
    _ = (dat1 (V2 m ρ) c).arrAt 5 cfg1.N := W3_arr m ρ c 5
theorem V5_v20 (c : Dev nD) : V5 m ρ c main_v20 = (dat0 (V1 m ρ) c).arrAt 3 cfg0.N :=
  calc V5 m ρ c main_v20
    _ = W5 m ρ c (Proc.devRef .tc main_v20) := rfl
    _ = W4 m ρ c (Proc.devRef .tc main_v20) := W5_of_ne m ρ c main_v20 (by decide)
    _ = W3 m ρ c (Proc.devRef .tc main_v20) := W4_of_ne m ρ c main_v20 (by decide)
    _ = W2 m ρ c (Proc.devRef .tc main_v20) := W3_of_ne m ρ c main_v20 (by decide)
    _ = (dat0 (V1 m ρ) c).arrAt 3 cfg0.N := W2_arr m ρ c 3
theorem V5_v10 (c : Dev nD) : V5 m ρ c main_v10 = W1 m ρ c (Proc.devRef .tc main_v10) :=
  calc V5 m ρ c main_v10
    _ = W5 m ρ c (Proc.devRef .tc main_v10) := rfl
    _ = W4 m ρ c (Proc.devRef .tc main_v10) := W5_of_ne m ρ c main_v10 (by decide)
    _ = W3 m ρ c (Proc.devRef .tc main_v10) := W4_of_ne m ρ c main_v10 (by decide)
    _ = W2 m ρ c (Proc.devRef .tc main_v10) := W3_of_ne m ρ c main_v10 (by decide)
    _ = W1 m ρ c (Proc.devRef .tc main_v10) := W2_of_ne m ρ c main_v10 (by decide)
theorem V5_v19 (c : Dev nD) : V5 m ρ c main_v19 = W1 m ρ c (Proc.devRef .tc main_v19) :=
  calc V5 m ρ c main_v19
    _ = W5 m ρ c (Proc.devRef .tc main_v19) := rfl
    _ = W4 m ρ c (Proc.devRef .tc main_v19) := W5_of_ne m ρ c main_v19 (by decide)
    _ = W3 m ρ c (Proc.devRef .tc main_v19) := W4_of_ne m ρ c main_v19 (by decide)
    _ = W2 m ρ c (Proc.devRef .tc main_v19) := W3_of_ne m ρ c main_v19 (by decide)
    _ = W1 m ρ c (Proc.devRef .tc main_v19) := W2_of_ne m ρ c main_v19 (by decide)

/-! ## After region 4 -/
theorem W6_v20 (c : Dev nD) : W6 m ρ c (Proc.devRef .tc main_v20) = (dat0 (V1 m ρ) c).arrAt 3 cfg0.N :=
  calc W6 m ρ c (Proc.devRef .tc main_v20)
    _ = W5 m ρ c (Proc.devRef .tc main_v20) := (W6_arr m ρ c 5).trans (((dat4 (V5 m ρ) c).arrAt_in 5 rfl _).trans (A_eq4 (V5 m ρ) c 5))
    _ = W4 m ρ c (Proc.devRef .tc main_v20) := W5_of_ne m ρ c main_v20 (by decide)
    _ = W3 m ρ c (Proc.devRef .tc main_v20) := W4_of_ne m ρ c main_v20 (by decide)
    _ = W2 m ρ c (Proc.devRef .tc main_v20) := W3_of_ne m ρ c main_v20 (by decide)
    _ = (dat0 (V1 m ρ) c).arrAt 3 cfg0.N := W2_arr m ρ c 3
theorem W6_v23 (c : Dev nD) : W6 m ρ c (Proc.devRef .tc main_v23) = (dat3 (V4 m ρ) c).arrAt 3 cfg3.N :=
  calc W6 m ρ c (Proc.devRef .tc main_v23)
    _ = W5 m ρ c (Proc.devRef .tc main_v23) := W6_of_ne m ρ c main_v23 (by decide)
    _ = (dat3 (V4 m ρ) c).arrAt 3 cfg3.N := W5_arr m ρ c 3
theorem W6_v24_0 (c : Dev nD) : W6 m ρ c (Proc.devRef .tc main_v24_0) = (dat4 (V5 m ρ) c).arrAt 8 cfg4.N :=
  calc W6 m ρ c (Proc.devRef .tc main_v24_0)
    _ = (dat4 (V5 m ρ) c).arrAt 8 cfg4.N := W6_arr m ρ c 8
theorem W6_v24_1 (c : Dev nD) : W6 m ρ c (Proc.devRef .tc main_v24_1) = (dat4 (V5 m ρ) c).arrAt 9 cfg4.N :=
  calc W6 m ρ c (Proc.devRef .tc main_v24_1)
    _ = (dat4 (V5 m ρ) c).arrAt 9 cfg4.N := W6_arr m ρ c 9
theorem W6_v24_2 (c : Dev nD) : W6 m ρ c (Proc.devRef .tc main_v24_2) = (dat4 (V5 m ρ) c).arrAt 10 cfg4.N :=
  calc W6 m ρ c (Proc.devRef .tc main_v24_2)
    _ = (dat4 (V5 m ρ) c).arrAt 10 cfg4.N := W6_arr m ρ c 10

end Cert.KernelIdeal.Fold

end
-- ==== Proof.KHost.lean ====
/-
  The host operations around the regions. Before the first region: the input, the query bias and the key bias are
  laid out as row vectors (a column read as a row), the key bias is scaled by 1/64 in both layouts, and the two
  scalar gates are computed by the same operations as the reference's. After the last region: the query row is read
  as a column, the normaliser's products with it are summed from the zero word, and the readout is divided by the
  larger of that sum's absolute value and 1 and multiplied by the output gate.
-/
import proofs.«162263_j86105504350522_1_alg».proof.Proof.Gen.KernelIdeal.Frame
import proofs.«162263_j86105504350522_1_alg».proof.Proof.Spec
import proofs.«162263_j86105504350522_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import proofs.«162263_j86105504350522_1_alg».proof.Proof.Gen.ReferenceIdeal.Read
import Idealize.ShloMosaic.Lib.StableHlo.Run
set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.HostVal

variable (m : (ℓ : Loc nD τ sig) → Buf (Elt Ideal) ℓ) (ρ : Dev nD → PrngReg)

/-! ## Reshapes between a column and a row, read at an index -/

/-- A column read as a row: entry (0, k) of the reshape is entry (k, 0) of the operand. -/
private theorem colAsRow {α : Type} (x : Cert.Spec.SCol.Idx → α) (h : Cert.Spec.SCol.ShapeCasts Cert.Spec.SRow) (k : Fin 4096) :
    shapeCast Cert.Spec.SRow x h (ix2 0 k) = x (ix2 k 0) :=
  shapeCast_apply x h (ix2 (0 : Fin 1) k) (ix2 k (0 : Fin 1)) (by
    rw [Shape.rowMajor_val_two, Shape.rowMajor_val_two]
    show k.val * 1 + 0 = 0 * 4096 + k.val; omega)

/-- A row read as a column: entry (k, 0) of the reshape is entry (0, k) of the operand. -/
private theorem rowAsCol {α : Type} (x : Cert.Spec.SRow.Idx → α) (h : Cert.Spec.SRow.ShapeCasts Cert.Spec.SCol) (k : Fin 4096) :
    shapeCast Cert.Spec.SCol x h (ix2 k 0) = x (ix2 0 k) :=
  shapeCast_apply x h (ix2 k (0 : Fin 1)) (ix2 (0 : Fin 1) k) (by
    rw [Shape.rowMajor_val_two, Shape.rowMajor_val_two]
    show 0 * 4096 + k.val = k.val * 1 + 0; omega)

/-! ## The host operations before the first region -/
theorem W1_v0 (c : Dev nD) (k : Fin 4096) :
    W1 m ρ c (Proc.devRef .tc main_v0) (ix2 0 k) = m ((c : Thread nD τ).loc main_arg0) (ix2 k 0) := by
  show StableHlo.after hostOps0 _ (Proc.devRef .tc main_v0) _ = _
  after_results_simp
  exact colAsRow _ _ k
theorem W1_v1 (c : Dev nD) (k : Fin 4096) :
    W1 m ρ c (Proc.devRef .tc main_v1) (ix2 0 k) = m ((c : Thread nD τ).loc main_arg4) (ix2 k 0) := by
  show StableHlo.after hostOps0 _ (Proc.devRef .tc main_v1) _ = _
  after_results_simp
  exact colAsRow _ _ k
theorem W1_v4 (c : Dev nD) (k : Fin 4096) :
    W1 m ρ c (Proc.devRef .tc main_v4) (ix2 0 k) = Cert.Spec.scale64 (m ((c : Thread nD τ).loc main_arg6) (ix2 k 0)) := by
  show StableHlo.after hostOps0 _ (Proc.devRef .tc main_v4) _ = _
  after_results_simp
  exact congrArg Cert.Spec.scale64 (colAsRow (W0 m ρ c (Proc.devRef .tc main_arg6)) shapeCasts_S4096x1_S1x4096 k)
theorem W1_v6 (c : Dev nD) (j : S4096x1.Idx) :
    W1 m ρ c (Proc.devRef .tc main_v6) j = Cert.Spec.scale64 (m ((c : Thread nD τ).loc main_arg6) j) := by
  show StableHlo.after hostOps0 _ (Proc.devRef .tc main_v6) _ = _
  after_results_simp
  rfl

theorem W1_v10 (c : Dev nD) :
    W1 m ρ c (Proc.devRef .tc main_v10)
      = Cert.ReferenceIdeal.Read.val_main_v11 (F := Ideal) (m ((c : Thread nD τ).loc main_arg0)) (m ((c : Thread nD τ).loc main_arg9)) (m ((c : Thread nD τ).loc main_arg10)) := by
  show StableHlo.after hostOps0 _ (Proc.devRef .tc main_v10) = _
  after_results_simp
  unfold Cert.ReferenceIdeal.Read.val_main_v11 Cert.ReferenceIdeal.Read.val_main_v10 Cert.ReferenceIdeal.Read.val_main_v9
    Cert.ReferenceIdeal.Read.val_main_v8
  rfl
theorem W1_v19 (c : Dev nD) :
    W1 m ρ c (Proc.devRef .tc main_v19)
      = Cert.ReferenceIdeal.Read.val_main_v20 (F := Ideal) (m ((c : Thread nD τ).loc main_arg0)) (m ((c : Thread nD τ).loc main_arg11)) (m ((c : Thread nD τ).loc main_arg12)) := by
  show StableHlo.after hostOps0 _ (Proc.devRef .tc main_v19) = _
  after_results_simp
  unfold Cert.ReferenceIdeal.Read.val_main_v20 Cert.ReferenceIdeal.Read.val_main_v19 Cert.ReferenceIdeal.Read.val_main_v18
    Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_cst_0 Cert.ReferenceIdeal.Read.val_main_cst_1
  rfl

/-! ## The host operations after the last region -/

/-- The sum over both axes of the column n(r, 0) * q(0, r), q a row read as a column, started from the zero word. -/
private theorem normSum (n : Cert.Spec.Col) (qr : Cert.Spec.Row) (j0 : S_.Idx) :
    Ideal.hostReduceAdd reducesTo_S4096x1_S_d0_1
        (mulf n fun i => shapeCast S4096x1 qr shapeCasts_S1x4096_S4096x1 i) Cert.Spec.zero j0
      = Cert.Spec.zero + ∑ r : Fin 4096, n (ix2 r 0) * qr (ix2 0 r) := by
  rw [Ideal.hostReduceAdd_total reducesTo_S4096x1_S_d0_1 (fun b => b.elim0)]
  refine congrArg (fun t => Cert.Spec.zero + t) ?_
  refine (sum_idx2 _).trans ?_
  refine Finset.sum_congr rfl fun r _ => ?_
  rw [Fin.sum_univ_one]
  exact congrArg (fun t => n (ix2 r 0) * t) (rowAsCol qr shapeCasts_S1x4096_S4096x1 r)

/-- The tail of the host program at an index: the gate times the quotient of the readout by the clamped normaliser. -/
private theorem out_eq (o hw n : Cert.Spec.Col) (qr : Cert.Spec.Row) :
    mulf o (Host.divf hw (broadcastInDim S4096x1 ![] bcast_S_S4096x1
      (maximumf (Host.absf (Host.reduceAdd (mulf n fun i => shapeCast S4096x1 qr shapeCasts_S1x4096_S4096x1 i)
          (constant S_ .f32 0x00000000#32) reducesTo_S4096x1_S_d0_1 h_S_))
        (constant S_ .f32 0x3F800000#32)))) = Cert.Spec.outH o hw n qr := by
  funext j
  exact congrArg (fun t => o j * Ideal.div (hw j) (max (FloatOps.absf (F := Ideal) (φ := .f32) t) Cert.Spec.one))
    (normSum n qr _)

theorem W7_v24_0 (c : Dev nD) : W7 m ρ c (Proc.devRef .tc main_v24_0) = W6 m ρ c (Proc.devRef .tc main_v24_0) :=
  StableHlo.after_of_forall_not_mem (b := Proc.devRef .tc main_v24_0) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W7_v24_1 (c : Dev nD) : W7 m ρ c (Proc.devRef .tc main_v24_1) = W6 m ρ c (Proc.devRef .tc main_v24_1) :=
  StableHlo.after_of_forall_not_mem (b := Proc.devRef .tc main_v24_1) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W7_v32 (c : Dev nD) :
    W7 m ρ c (Proc.devRef .tc main_v32)
      = Cert.Spec.outH (W6 m ρ c (Proc.devRef .tc main_v23)) (W6 m ρ c (Proc.devRef .tc main_v24_2))
          (W6 m ρ c (Proc.devRef .tc main_v24_1)) (W6 m ρ c (Proc.devRef .tc main_v20)) := by
  show StableHlo.after hostOps5 _ (Proc.devRef .tc main_v32) = _
  generalize W6 m ρ c = V
  after_results_simp
  exact out_eq _ _ _ _

end Cert.KernelIdeal.HostVal

end
-- ==== Proof.Algebra.lean ====
/-
  The two spellings of the cell agree on the extended reals.

  The only laws used hold for ALL extended reals, infinite entries included: products commute, a product with 1
  and a sum with 0 are the other operand, and a nonnegative FINITE factor (here 1/64) distributes over a sum.
  The scaled key is the place where distribution is needed: the tiled spelling scales the matrix-vector sum and
  the bias separately and adds, the plain one adds and then scales.
-/
import proofs.«162263_j86105504350522_1_alg».proof.Proof.Spec

noncomputable section

namespace Cert.Spec

open Idealize.ShloMosaic Idealize.ShloMosaic.ValueIdx

/-! ## The three constants -/

theorem one_eq : one = 1 := by
  unfold one; simp [Ideal.ofBits, Ideal.ieee, -EReal.coe_mul]; norm_num

theorem zero_eq : zero = 0 := by
  unfold zero; exact Ideal.ofBits_zero_f32

theorem c64_eq : c64 = (((1 : ℝ) / 64 : ℝ) : EReal) := by
  unfold c64; simp [Ideal.ofBits, Ideal.ieee, -EReal.coe_mul]; norm_num

theorem c64_nonneg : 0 ≤ c64 := by
  rw [c64_eq]; exact_mod_cast (by norm_num : (0 : ℝ) ≤ 1 / 64)

theorem c64_ne_top : c64 ≠ ⊤ := by
  rw [c64_eq]; exact EReal.coe_ne_top _

/-- Scaling after adding is adding after scaling, for the factor 1/64 and any two extended reals. -/
theorem c64_distrib (a b : EReal) : c64 * (a + b) = a * c64 + b * c64 := by
  rw [EReal.left_distrib_of_nonneg_of_ne_top c64_nonneg c64_ne_top, mul_comm c64 a, mul_comm c64 b]

/-! ## The projections -/

/-- The row vector against the rows of the matrix is the matrix against the column vector. -/
theorem rowMv_one (xr : Row) (x : Col) (W : Mat) (br : Row) (b : Col)
    (hx : ∀ k, xr (ix2 0 k) = x (ix2 k 0)) (hb : ∀ k, br (ix2 0 k) = b (ix2 k 0)) (r : Fin 4096) :
    rowMv one xr W br (ix2 0 r) = refMv W x b (ix2 r 0) := by
  show (∑ k : Fin 4096, xr (ix2 0 k) * W (ix2 r k)) * one + br (ix2 0 r)
      = (∑ k : Fin 4096, W (ix2 r k) * x (ix2 k 0)) + b (ix2 r 0)
  rw [one_eq, mul_one, hb]
  exact congrArg (· + b (ix2 r 0)) (Finset.sum_congr rfl fun k _ => by rw [hx, mul_comm])

/-- The scaled key as a row vector, its bias scaled beforehand. -/
theorem rowMv_c64 (xr : Row) (x : Col) (W : Mat) (br : Row) (b : Col)
    (hx : ∀ k, xr (ix2 0 k) = x (ix2 k 0)) (hb : ∀ k, br (ix2 0 k) = scale64 (b (ix2 k 0))) (r : Fin 4096) :
    rowMv c64 xr W br (ix2 0 r) = refK W x b (ix2 r 0) := by
  show (∑ k : Fin 4096, xr (ix2 0 k) * W (ix2 r k)) * c64 + br (ix2 0 r)
      = c64 * ((∑ k : Fin 4096, W (ix2 r k) * x (ix2 k 0)) + b (ix2 r 0))
  rw [hb, c64_distrib]
  exact congrArg (· * c64 + scale64 (b (ix2 r 0))) (Finset.sum_congr rfl fun k _ => by rw [hx, mul_comm])

/-- The scaled key as a column vector, its bias scaled beforehand. -/
theorem colMv_c64 (x : Col) (W : Mat) (bc b : Col) (hb : ∀ j, bc j = scale64 (b j)) :
    colMv c64 x W bc = refK W x b := by
  funext j
  show (∑ k : Fin 4096, W (ix2 (j 0) k) * x (ix2 k (j 1))) * c64 + bc j
      = c64 * ((∑ k : Fin 4096, W (ix2 (j 0) k) * x (ix2 k (j 1))) + b j)
  rw [hb, c64_distrib]; rfl

/-- The unscaled projection. -/
theorem colMv_one (x : Col) (W : Mat) (b : Col) : colMv one x W b = refMv W x b := by
  funext j
  show (∑ k : Fin 4096, W (ix2 (j 0) k) * x (ix2 k (j 1))) * one + b j
      = (∑ k : Fin 4096, W (ix2 (j 0) k) * x (ix2 k (j 1))) + b j
  rw [one_eq, mul_one]

/-- The logistic function is the quotient 1 / (1 + exp (-z)). -/
theorem colMvSig_eq (x : Col) (W : Mat) (b : Col) : colMvSig x W b = refO W x b := by
  funext j
  show Ideal.logistic (colMv one x W b j) = Ideal.div one (one + Ideal.exp (-(refMv W x b j)))
  rw [colMv_one, one_eq]; rfl

/-! ## The memory, the normaliser and the readout -/

theorem updC_eq (g f : Sc) (Cp : Mat) (v : Col) (kr : Row) (k' : Col)
    (hk : ∀ j, kr (ix2 0 j) = k' (ix2 j 0)) : updC g f Cp v kr = refC g f Cp v k' := by
  funext j
  show f (ix2 0 0) * Cp j + g (ix2 0 0) * (v (ix2 (j 0) 0) * kr (ix2 0 (j 1)))
      = f (ix2 0 0) * Cp j + g (ix2 0 0) * (v (ix2 (j 0) 0) * k' (ix2 (j 1) 0))
  exact congrArg (fun z : EReal => f (ix2 0 0) * Cp j + g (ix2 0 0) * (v (ix2 (j 0) 0) * z)) (hk (j 1))

theorem readH_eq (g f : Sc) (Cp : Mat) (v : Col) (kr qr : Row) (C' : Mat) (q' : Col)
    (hC : updC g f Cp v kr = C') (hq : ∀ k, qr (ix2 0 k) = q' (ix2 k 0)) (j : SCol.Idx) :
    readH g f Cp v kr qr j = ∑ k : Fin 4096, C' (ix2 (j 0) k) * q' (ix2 k (j 1)) := by
  show (∑ k : Fin 4096, updC g f Cp v kr (ix2 (j 0) k) * qr (ix2 0 k)) = _
  rw [hC]
  have e : @Eq (Fin 1) (j 1) 0 := Subsingleton.elim (α := Fin 1) _ _
  exact Finset.sum_congr rfl fun k _ => by
    rw [hq k]; exact congrArg (fun z : Fin 1 => C' (ix2 (j 0) k) * q' (ix2 k z)) e.symm

theorem outH_eq (o hw n : Col) (qr : Row) (C' : Mat) (q' : Col)
    (hq : ∀ k, qr (ix2 0 k) = q' (ix2 k 0))
    (hhw : ∀ j, hw j = ∑ k : Fin 4096, C' (ix2 (j 0) k) * q' (ix2 k (j 1))) :
    outH o hw n qr = refH o C' n q' := by
  funext j
  show o j * Ideal.div (hw j)
        (max (FloatOps.absf (F := Ideal) (φ := .f32) (zero + ∑ r : Fin 4096, n (ix2 r 0) * qr (ix2 0 r))) one)
      = o j * Ideal.div (∑ k : Fin 4096, C' (ix2 (j 0) k) * q' (ix2 k (j 1)))
        (max (FloatOps.absf (F := Ideal) (φ := .f32) (∑ k : Fin 4096, n (ix2 k 0) * q' (ix2 k 0))) one)
  rw [hhw, zero_eq, zero_add]
  have e : (∑ r : Fin 4096, n (ix2 r 0) * qr (ix2 0 r)) = ∑ k : Fin 4096, n (ix2 k 0) * q' (ix2 k 0) :=
    Finset.sum_congr rfl fun k _ => by rw [hq]
  rw [e]

end Cert.Spec

end
-- ==== Proof.KVal.lean ====
/-
  The kernel program's three results as the plain spelling of the cell, in terms of the launch arguments.

  Each region's output array is its tiled function of the arrays the region finds (one module per region); the
  fold through the program's segments says which arrays those are; the host operations before the first region
  lay the input, the query bias and the scaled key bias out as row vectors and compute the two scalar gates; the
  ones after the last region normalise and gate the readout. Composed, and with the two spellings identified, the
  result buffers hold the plain spelling's memory, normaliser and readout.
-/
import proofs.«162263_j86105504350522_1_alg».proof.Proof.KReg0
import proofs.«162263_j86105504350522_1_alg».proof.Proof.KReg1
import proofs.«162263_j86105504350522_1_alg».proof.Proof.KReg1b
import proofs.«162263_j86105504350522_1_alg».proof.Proof.KReg2
import proofs.«162263_j86105504350522_1_alg».proof.Proof.KReg3
import proofs.«162263_j86105504350522_1_alg».proof.Proof.KReg4
import proofs.«162263_j86105504350522_1_alg».proof.Proof.KFold
import proofs.«162263_j86105504350522_1_alg».proof.Proof.KHost
import proofs.«162263_j86105504350522_1_alg».proof.Proof.Algebra

set_option maxRecDepth 16384

noncomputable section

open Idealize.ShloMosaic Idealize.ShloMosaic.TcCoe Idealize.ShloMosaic.ValueIdx Idealize.SL.Sem
open Cert.KernelIdeal Cert.KernelIdeal.Gen

namespace Cert.KernelIdeal.KVal

open Cert.KernelIdeal.Fold Cert.KernelIdeal.HostVal

variable (m : (ℓ : Loc nD τ sig) → Buf (Elt Ideal) ℓ) (ρ : Dev nD → PrngReg)

/-! ## The regions' output arrays, in terms of the launch arguments and the host prefix -/

/-- The query as a row vector. -/
theorem q_row (c : Dev nD) : (dat0 (V1 m ρ) c).arrAt 3 cfg0.N = Cert.Spec.rowMv Cert.Spec.one (W1 m ρ c (Proc.devRef .tc main_v0)) (m ((c : Thread nD τ).loc main_arg3)) (W1 m ρ c (Proc.devRef .tc main_v1)) := by
  rw [Cert.KernelIdeal.Reg0.arr0 (V1 m ρ) c, V1_arg3]

/-- The scaled key as a row vector. -/
theorem k_row (c : Dev nD) : (dat1 (V2 m ρ) c).arrAt 5 cfg1.N = Cert.Spec.rowMv Cert.Spec.c64 (W1 m ρ c (Proc.devRef .tc main_v0)) (m ((c : Thread nD τ).loc main_arg5)) (W1 m ρ c (Proc.devRef .tc main_v4)) := by
  rw [Cert.KernelIdeal.Reg1.arr1_5 (V2 m ρ) c, V2_v0, V2_arg5, V2_v4]

/-- The scaled key as a column vector. -/
theorem k_col (c : Dev nD) : (dat1 (V2 m ρ) c).arrAt 6 cfg1.N = Cert.Spec.colMv Cert.Spec.c64 (m ((c : Thread nD τ).loc main_arg0)) (m ((c : Thread nD τ).loc main_arg5)) (W1 m ρ c (Proc.devRef .tc main_v6)) := by
  rw [Cert.KernelIdeal.Reg1b.arr1_6 (V2 m ρ) c, V2_arg0, V2_arg5, V2_v6]

/-- The value as a column vector. -/
theorem v_col (c : Dev nD) : (dat2 (V3 m ρ) c).arrAt 3 cfg2.N = Cert.Spec.colMv Cert.Spec.one (m ((c : Thread nD τ).loc main_arg0)) (m ((c : Thread nD τ).loc main_arg7)) (m ((c : Thread nD τ).loc main_arg8)) := by
  rw [Cert.KernelIdeal.Reg2.arr2 (V3 m ρ) c, V3_arg0, V3_arg7, V3_arg8]

/-- The output gate as a column vector. -/
theorem o_col (c : Dev nD) : (dat3 (V4 m ρ) c).arrAt 3 cfg3.N = Cert.Spec.colMvSig (m ((c : Thread nD τ).loc main_arg0)) (m ((c : Thread nD τ).loc main_arg13)) (m ((c : Thread nD τ).loc main_arg14)) := by
  rw [Cert.KernelIdeal.Reg3.arr3 (V4 m ρ) c, V4_arg0, V4_arg13, V4_arg14]

/-- The updated memory. -/
theorem c_new (c : Dev nD) : (dat4 (V5 m ρ) c).arrAt 8 cfg4.N
    = Cert.Spec.updC (Cert.ReferenceIdeal.Read.val_main_v11 (F := Ideal) (m ((c : Thread nD τ).loc main_arg0)) (m ((c : Thread nD τ).loc main_arg9)) (m ((c : Thread nD τ).loc main_arg10))) (Cert.ReferenceIdeal.Read.val_main_v20 (F := Ideal) (m ((c : Thread nD τ).loc main_arg0)) (m ((c : Thread nD τ).loc main_arg11)) (m ((c : Thread nD τ).loc main_arg12))) (m ((c : Thread nD τ).loc main_arg1)) (Cert.Spec.colMv Cert.Spec.one (m ((c : Thread nD τ).loc main_arg0)) (m ((c : Thread nD τ).loc main_arg7)) (m ((c : Thread nD τ).loc main_arg8))) (Cert.Spec.rowMv Cert.Spec.c64 (W1 m ρ c (Proc.devRef .tc main_v0)) (m ((c : Thread nD τ).loc main_arg5)) (W1 m ρ c (Proc.devRef .tc main_v4))) := by
  rw [Cert.KernelIdeal.Reg4.arr4_8 (V5 m ρ) c, V5_v10, V5_v19, V5_arg1, V5_v22, V5_v21_0, v_col, k_row, W1_v10, W1_v19]

/-- The updated normaliser. -/
theorem n_new (c : Dev nD) : (dat4 (V5 m ρ) c).arrAt 9 cfg4.N
    = Cert.Spec.updN (Cert.ReferenceIdeal.Read.val_main_v11 (F := Ideal) (m ((c : Thread nD τ).loc main_arg0)) (m ((c : Thread nD τ).loc main_arg9)) (m ((c : Thread nD τ).loc main_arg10))) (Cert.ReferenceIdeal.Read.val_main_v20 (F := Ideal) (m ((c : Thread nD τ).loc main_arg0)) (m ((c : Thread nD τ).loc main_arg11)) (m ((c : Thread nD τ).loc main_arg12))) (m ((c : Thread nD τ).loc main_arg2)) (Cert.Spec.colMv Cert.Spec.c64 (m ((c : Thread nD τ).loc main_arg0)) (m ((c : Thread nD τ).loc main_arg5)) (W1 m ρ c (Proc.devRef .tc main_v6))) := by
  rw [Cert.KernelIdeal.Reg4.arr4_9 (V5 m ρ) c, V5_v10, V5_v19, V5_arg2, V5_v21_1, k_col, W1_v10, W1_v19]

/-- The row sums of the updated memory against the query. -/
theorem h_raw (c : Dev nD) : (dat4 (V5 m ρ) c).arrAt 10 cfg4.N
    = Cert.Spec.readH (Cert.ReferenceIdeal.Read.val_main_v11 (F := Ideal) (m ((c : Thread nD τ).loc main_arg0)) (m ((c : Thread nD τ).loc main_arg9)) (m ((c : Thread nD τ).loc main_arg10))) (Cert.ReferenceIdeal.Read.val_main_v20 (F := Ideal) (m ((c : Thread nD τ).loc main_arg0)) (m ((c : Thread nD τ).loc main_arg11)) (m ((c : Thread nD τ).loc main_arg12))) (m ((c : Thread nD τ).loc main_arg1)) (Cert.Spec.colMv Cert.Spec.one (m ((c : Thread nD τ).loc main_arg0)) (m ((c : Thread nD τ).loc main_arg7)) (m ((c : Thread nD τ).loc main_arg8))) (Cert.Spec.rowMv Cert.Spec.c64 (W1 m ρ c (Proc.devRef .tc main_v0)) (m ((c : Thread nD τ).loc main_arg5)) (W1 m ρ c (Proc.devRef .tc main_v4))) (Cert.Spec.rowMv Cert.Spec.one (W1 m ρ c (Proc.devRef .tc main_v0)) (m ((c : Thread nD τ).loc main_arg3)) (W1 m ρ c (Proc.devRef .tc main_v1))) := by
  rw [Cert.KernelIdeal.Reg4.arr4_10 (V5 m ρ) c, V5_v10, V5_v19, V5_arg1, V5_v22, V5_v21_0, V5_v20, v_col, k_row, q_row, W1_v10, W1_v19]

/-! ## The two spellings identified -/

/-- The tiled memory update is the plain one. -/
theorem c_new_plain (c : Dev nD) :
    Cert.Spec.updC (Cert.ReferenceIdeal.Read.val_main_v11 (F := Ideal) (m ((c : Thread nD τ).loc main_arg0)) (m ((c : Thread nD τ).loc main_arg9)) (m ((c : Thread nD τ).loc main_arg10))) (Cert.ReferenceIdeal.Read.val_main_v20 (F := Ideal) (m ((c : Thread nD τ).loc main_arg0)) (m ((c : Thread nD τ).loc main_arg11)) (m ((c : Thread nD τ).loc main_arg12))) (m ((c : Thread nD τ).loc main_arg1)) (Cert.Spec.colMv Cert.Spec.one (m ((c : Thread nD τ).loc main_arg0)) (m ((c : Thread nD τ).loc main_arg7)) (m ((c : Thread nD τ).loc main_arg8))) (Cert.Spec.rowMv Cert.Spec.c64 (W1 m ρ c (Proc.devRef .tc main_v0)) (m ((c : Thread nD τ).loc main_arg5)) (W1 m ρ c (Proc.devRef .tc main_v4))) = Cert.Spec.refC (Cert.ReferenceIdeal.Read.val_main_v11 (F := Ideal) (m ((c : Thread nD τ).loc main_arg0)) (m ((c : Thread nD τ).loc main_arg9)) (m ((c : Thread nD τ).loc main_arg10))) (Cert.ReferenceIdeal.Read.val_main_v20 (F := Ideal) (m ((c : Thread nD τ).loc main_arg0)) (m ((c : Thread nD τ).loc main_arg11)) (m ((c : Thread nD τ).loc main_arg12))) (m ((c : Thread nD τ).loc main_arg1)) (Cert.Spec.refMv (m ((c : Thread nD τ).loc main_arg7)) (m ((c : Thread nD τ).loc main_arg0)) (m ((c : Thread nD τ).loc main_arg8))) (Cert.Spec.refK (m ((c : Thread nD τ).loc main_arg5)) (m ((c : Thread nD τ).loc main_arg0)) (m ((c : Thread nD τ).loc main_arg6))) := by
  rw [Cert.Spec.colMv_one]
  exact Cert.Spec.updC_eq _ _ _ _ _ _ (fun j => Cert.Spec.rowMv_c64 _ _ _ _ _ (W1_v0 m ρ c) (W1_v4 m ρ c) j)

/-! ## The result buffers -/

/-- The memory result. -/
theorem res_C (c : Dev nD) : W7 m ρ c (Proc.devRef .tc main_v24_0) = Cert.Spec.refC (Cert.ReferenceIdeal.Read.val_main_v11 (F := Ideal) (m ((c : Thread nD τ).loc main_arg0)) (m ((c : Thread nD τ).loc main_arg9)) (m ((c : Thread nD τ).loc main_arg10))) (Cert.ReferenceIdeal.Read.val_main_v20 (F := Ideal) (m ((c : Thread nD τ).loc main_arg0)) (m ((c : Thread nD τ).loc main_arg11)) (m ((c : Thread nD τ).loc main_arg12))) (m ((c : Thread nD τ).loc main_arg1)) (Cert.Spec.refMv (m ((c : Thread nD τ).loc main_arg7)) (m ((c : Thread nD τ).loc main_arg0)) (m ((c : Thread nD τ).loc main_arg8))) (Cert.Spec.refK (m ((c : Thread nD τ).loc main_arg5)) (m ((c : Thread nD τ).loc main_arg0)) (m ((c : Thread nD τ).loc main_arg6))) := by
  rw [W7_v24_0, W6_v24_0, c_new, c_new_plain]

/-- The normaliser result. -/
theorem res_N (c : Dev nD) : W7 m ρ c (Proc.devRef .tc main_v24_1) = Cert.Spec.updN (Cert.ReferenceIdeal.Read.val_main_v11 (F := Ideal) (m ((c : Thread nD τ).loc main_arg0)) (m ((c : Thread nD τ).loc main_arg9)) (m ((c : Thread nD τ).loc main_arg10))) (Cert.ReferenceIdeal.Read.val_main_v20 (F := Ideal) (m ((c : Thread nD τ).loc main_arg0)) (m ((c : Thread nD τ).loc main_arg11)) (m ((c : Thread nD τ).loc main_arg12))) (m ((c : Thread nD τ).loc main_arg2)) (Cert.Spec.refK (m ((c : Thread nD τ).loc main_arg5)) (m ((c : Thread nD τ).loc main_arg0)) (m ((c : Thread nD τ).loc main_arg6))) := by
  rw [W7_v24_1, W6_v24_1, n_new, Cert.Spec.colMv_c64 _ _ _ _ (W1_v6 m ρ c)]

/-- The readout result. -/
theorem res_H (c : Dev nD) : W7 m ρ c (Proc.devRef .tc main_v32) = Cert.Spec.refH (Cert.Spec.refO (m ((c : Thread nD τ).loc main_arg13)) (m ((c : Thread nD τ).loc main_arg0)) (m ((c : Thread nD τ).loc main_arg14))) (Cert.Spec.refC (Cert.ReferenceIdeal.Read.val_main_v11 (F := Ideal) (m ((c : Thread nD τ).loc main_arg0)) (m ((c : Thread nD τ).loc main_arg9)) (m ((c : Thread nD τ).loc main_arg10))) (Cert.ReferenceIdeal.Read.val_main_v20 (F := Ideal) (m ((c : Thread nD τ).loc main_arg0)) (m ((c : Thread nD τ).loc main_arg11)) (m ((c : Thread nD τ).loc main_arg12))) (m ((c : Thread nD τ).loc main_arg1)) (Cert.Spec.refMv (m ((c : Thread nD τ).loc main_arg7)) (m ((c : Thread nD τ).loc main_arg0)) (m ((c : Thread nD τ).loc main_arg8))) (Cert.Spec.refK (m ((c : Thread nD τ).loc main_arg5)) (m ((c : Thread nD τ).loc main_arg0)) (m ((c : Thread nD τ).loc main_arg6)))) (Cert.Spec.updN (Cert.ReferenceIdeal.Read.val_main_v11 (F := Ideal) (m ((c : Thread nD τ).loc main_arg0)) (m ((c : Thread nD τ).loc main_arg9)) (m ((c : Thread nD τ).loc main_arg10))) (Cert.ReferenceIdeal.Read.val_main_v20 (F := Ideal) (m ((c : Thread nD τ).loc main_arg0)) (m ((c : Thread nD τ).loc main_arg11)) (m ((c : Thread nD τ).loc main_arg12))) (m ((c : Thread nD τ).loc main_arg2)) (Cert.Spec.refK (m ((c : Thread nD τ).loc main_arg5)) (m ((c : Thread nD τ).loc main_arg0)) (m ((c : Thread nD τ).loc main_arg6)))) (Cert.Spec.refMv (m ((c : Thread nD τ).loc main_arg3)) (m ((c : Thread nD τ).loc main_arg0)) (m ((c : Thread nD τ).loc main_arg4))) := by
  rw [W7_v32, W6_v23, W6_v24_2, W6_v24_1, W6_v20, o_col, h_raw, n_new, q_row, Cert.Spec.colMvSig_eq,
    Cert.Spec.colMv_c64 _ _ _ _ (W1_v6 m ρ c)]
  exact Cert.Spec.outH_eq _ _ _ _ _ _
    (fun k => Cert.Spec.rowMv_one _ _ _ _ _ (W1_v0 m ρ c) (W1_v1 m ρ c) k)
    (fun j => Cert.Spec.readH_eq _ _ _ _ _ _ _ _ (c_new_plain m ρ c)
      (fun k => Cert.Spec.rowMv_one _ _ _ _ _ (W1_v0 m ρ c) (W1_v1 m ρ c) k) j)

end Cert.KernelIdeal.KVal

end
-- ==== Proof.RefVal.lean ====
import proofs.«162263_j86105504350522_1_alg».proof.Proof.Gen.ReferenceIdeal.Read
import proofs.«162263_j86105504350522_1_alg».proof.Proof.Spec
import proofs.«162263_j86105504350522_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Cert.ReferenceIdeal Cert.ReferenceIdeal.Gen Cert.ReferenceIdeal.Read

namespace Cert.ReferenceIdeal.RefVal

/-!
  The reference's three results, index by index, in the plain spelling.

  Every affine map W x + b of the reference is a matrix against the column vector x plus a bias; the key is that
  map scaled by 1/64 afterwards, the output gate is 1 / (1 + exp (-(W x + b))). The memory result at (r, c) is
  f * C'(r, c) + g * (v(r) * k(c)): the value and the key reach the square array through a flattening to one axis and
  two broadcasts, which read v at (r, 0) and k at (c, 0). The normaliser result at (r, 0) is f * n'(r, 0) + g * k(r, 0).
  The readout divides the row sums of C(r, k) * q(k, 0) by the larger of 1 and the absolute value of the sum of
  n(k, 0) * q(k, 0), the transposed normaliser read back at (k, 0), and multiplies by the output gate.
  The two scalar gates g and f are kept as whole stages and read at their one entry (0, 0).
-/

/-- A matrix against a column vector: the host's plain contraction at an index. -/
private theorem mv_apply (W : FVec Ideal S4096x4096 .f32) (x : FVec Ideal S4096x1 .f32) (i : S4096x1.Idx) :
    val_main_v0 (F := Ideal) x W i = ∑ k : Fin 4096, W (ix2 (i 0) k) * x (ix2 k (i 1)) :=
  Cert.PlainDot.dotGeneral_apply 4096 4096 1 none _ W x i

private theorem v1_eq (x0 : FVec Ideal S4096x1 .f32) (W : FVec Ideal S4096x4096 .f32) (b : FVec Ideal S4096x1 .f32) :
    val_main_v1 (F := Ideal) x0 W b = Cert.Spec.refMv W x0 b := by
  funext i
  show val_main_v0 (F := Ideal) x0 W i + b i = _
  rw [mv_apply]
  rfl

private theorem v7_eq (x0 : FVec Ideal S4096x1 .f32) (W : FVec Ideal S4096x4096 .f32) (b : FVec Ideal S4096x1 .f32) :
    val_main_v7 (F := Ideal) x0 W b = Cert.Spec.refMv W x0 b := v1_eq x0 W b

private theorem v3_eq (x0 : FVec Ideal S4096x1 .f32) (W : FVec Ideal S4096x4096 .f32) (b : FVec Ideal S4096x1 .f32) :
    val_main_v3 (F := Ideal) x0 W b = Cert.Spec.refMv W x0 b := v1_eq x0 W b

private theorem v48_eq (x0 : FVec Ideal S4096x1 .f32) (W : FVec Ideal S4096x4096 .f32) (b : FVec Ideal S4096x1 .f32) :
    val_main_v48 (F := Ideal) x0 W b = Cert.Spec.refMv W x0 b := v1_eq x0 W b

private theorem v5_eq (x0 : FVec Ideal S4096x1 .f32) (W : FVec Ideal S4096x4096 .f32) (b : FVec Ideal S4096x1 .f32) :
    val_main_v5 (F := Ideal) x0 W b = Cert.Spec.refK W x0 b := by
  funext i
  rw [val_main_v5_apply, val_main_v4_apply, val_main_cst_apply, v3_eq]
  rfl

private theorem v54_eq (x0 : FVec Ideal S4096x1 .f32) (W : FVec Ideal S4096x4096 .f32) (b : FVec Ideal S4096x1 .f32) :
    val_main_v54 (F := Ideal) x0 W b = Cert.Spec.refO W x0 b := by
  funext i
  rw [val_main_v54_apply, val_main_v53_apply, val_main_cst_4_apply, val_main_v52_apply, val_main_v51_apply,
    val_main_cst_3_apply, val_main_v50_apply, val_main_v49_apply, v48_eq]
  rfl

/-! Index equations: the composed layout maps of the broadcast chains, as coordinates. -/

private theorem idx33 (i : S4096x1.Idx) : idx_main_v33 i = ix2 0 0 :=
  funext fun a => Fin.ext (by match a with | ⟨0, _⟩ => rfl | ⟨1, _⟩ => rfl)
private theorem idx36 (i : S4096x1.Idx) : idx_main_v36 i = ix2 0 0 :=
  funext fun a => Fin.ext (by match a with | ⟨0, _⟩ => rfl | ⟨1, _⟩ => rfl)
private theorem idx23 (i : S4096x4096.Idx) : idx_main_v23 i = ix2 0 0 :=
  funext fun a => Fin.ext (by match a with | ⟨0, _⟩ => rfl | ⟨1, _⟩ => rfl)
private theorem idx30 (i : S4096x4096.Idx) : idx_main_v30 i = ix2 0 0 :=
  funext fun a => Fin.ext (by match a with | ⟨0, _⟩ => rfl | ⟨1, _⟩ => rfl)
private theorem idx45 (i : S4096x1.Idx) : idx_main_v45 i = ix2 0 0 :=
  funext fun a => Fin.ext (by match a with | ⟨0, _⟩ => rfl | ⟨1, _⟩ => rfl)

private theorem idx35 (i : S4096x1.Idx) : idx_main_v22 (idx_main_v35 i) = i :=
  funext fun a => Fin.ext (by
    match a with
    | ⟨0, _⟩ => exact Nat.div_one _
    | ⟨1, _⟩ => exact (Nat.lt_one_iff.mp (idx2_lt1 i)).symm)

private theorem idx27 (i : S4096x4096.Idx) : idx_main_v21 (idx_main_v25 (idx_main_v27 i)) = ix2 (i 0) 0 :=
  funext fun a => Fin.ext (by
    match a with
    | ⟨0, _⟩ => exact Nat.div_one _
    | ⟨1, _⟩ => rfl)

private theorem idx28 (i : S4096x4096.Idx) : idx_main_v22 (idx_main_v26 (idx_main_v28 i)) = ix2 (i 1) 0 :=
  funext fun a => Fin.ext (by
    match a with
    | ⟨0, _⟩ => exact Nat.div_one _
    | ⟨1, _⟩ => rfl)

/-- The reference's normaliser result. -/
theorem refN_eq (x0 x2 : FVec Ideal S4096x1 .f32) (x5 : FVec Ideal S4096x4096 .f32) (x6 : FVec Ideal S4096x1 .f32)
    (x9 : FVec Ideal S1x4096 .f32) (x10 : FVec Ideal S1 .f32) (x11 : FVec Ideal S1x4096 .f32) (x12 : FVec Ideal S1 .f32) :
    val_main_v38 (F := Ideal) x0 x2 x5 x6 x9 x10 x11 x12
      = Cert.Spec.updN (val_main_v11 (F := Ideal) x0 x9 x10) (val_main_v20 (F := Ideal) x0 x11 x12) x2 (Cert.Spec.refK x5 x0 x6) := by
  funext i
  rw [val_main_v38_apply, val_main_v34_apply, val_main_v33_apply, val_main_v37_apply, val_main_v36_apply,
    val_main_v35_apply, val_main_v22_apply, idx33 i, idx36 i, idx35 i, v5_eq]
  rfl

/-- The reference's memory result is the plain spelling of the memory update. -/
theorem refC_eq (x0 : FVec Ideal S4096x1 .f32) (x1 x5 : FVec Ideal S4096x4096 .f32) (x6 : FVec Ideal S4096x1 .f32)
    (x7 : FVec Ideal S4096x4096 .f32) (x8 : FVec Ideal S4096x1 .f32) (x9 : FVec Ideal S1x4096 .f32) (x10 : FVec Ideal S1 .f32)
    (x11 : FVec Ideal S1x4096 .f32) (x12 : FVec Ideal S1 .f32) :
    val_main_v32 (F := Ideal) x0 x1 x5 x6 x7 x8 x9 x10 x11 x12
      = Cert.Spec.refC (val_main_v11 (F := Ideal) x0 x9 x10) (val_main_v20 (F := Ideal) x0 x11 x12) x1
          (Cert.Spec.refMv x7 x0 x8) (Cert.Spec.refK x5 x0 x6) := by
  funext i
  rw [val_main_v32_apply, val_main_v24_apply, val_main_v23_apply, val_main_v31_apply, val_main_v30_apply,
    val_main_v29_apply, val_main_v27_apply, val_main_v25_apply, val_main_v21_apply, val_main_v28_apply,
    val_main_v26_apply, val_main_v22_apply, idx23 i, idx30 i, idx27 i, idx28 i, v7_eq, v5_eq]
  rfl

private theorem idx39 (k : Fin 4096) : idx_main_v39 (ix2 0 k) = ix2 k 0 :=
  funext fun a => Fin.ext (by match a with | ⟨0, _⟩ => rfl | ⟨1, _⟩ => rfl)

/-- The memory result against the query, at an index. -/
private theorem v44_at (x0 : FVec Ideal S4096x1 .f32) (x1 x3 : FVec Ideal S4096x4096 .f32) (x4 : FVec Ideal S4096x1 .f32)
    (x5 : FVec Ideal S4096x4096 .f32) (x6 : FVec Ideal S4096x1 .f32) (x7 : FVec Ideal S4096x4096 .f32) (x8 : FVec Ideal S4096x1 .f32)
    (x9 : FVec Ideal S1x4096 .f32) (x10 : FVec Ideal S1 .f32) (x11 : FVec Ideal S1x4096 .f32) (x12 : FVec Ideal S1 .f32)
    (i : S4096x1.Idx) :
    val_main_v44 (F := Ideal) x0 x1 x3 x4 x5 x6 x7 x8 x9 x10 x11 x12 i
      = ∑ k : Fin 4096, val_main_v32 (F := Ideal) x0 x1 x5 x6 x7 x8 x9 x10 x11 x12 (ix2 (i 0) k)
          * Cert.Spec.refMv x3 x0 x4 (ix2 k (i 1)) := by
  rw [← v1_eq]
  exact Cert.PlainDot.dotGeneral_apply 4096 4096 1 none _ (val_main_v32 (F := Ideal) x0 x1 x5 x6 x7 x8 x9 x10 x11 x12)
    (val_main_v1 (F := Ideal) x0 x3 x4) i

/-- The transposed normaliser result against the query: the one entry of the product. -/
private theorem v40_at (x0 x2 : FVec Ideal S4096x1 .f32) (x3 : FVec Ideal S4096x4096 .f32) (x4 : FVec Ideal S4096x1 .f32)
    (x5 : FVec Ideal S4096x4096 .f32) (x6 : FVec Ideal S4096x1 .f32)
    (x9 : FVec Ideal S1x4096 .f32) (x10 : FVec Ideal S1 .f32) (x11 : FVec Ideal S1x4096 .f32) (x12 : FVec Ideal S1 .f32) :
    val_main_v40 (F := Ideal) x0 x2 x3 x4 x5 x6 x9 x10 x11 x12 (ix2 0 0)
      = ∑ k : Fin 4096, val_main_v38 (F := Ideal) x0 x2 x5 x6 x9 x10 x11 x12 (ix2 k 0)
          * Cert.Spec.refMv x3 x0 x4 (ix2 k 0) := by
  rw [← v1_eq]
  refine (Cert.PlainDot.dotGeneral_apply 1 4096 1 none _ (val_main_v39 (F := Ideal) x0 x2 x5 x6 x9 x10 x11 x12)
    (val_main_v1 (F := Ideal) x0 x3 x4) (ix2 0 0)).trans ?_
  refine Finset.sum_congr rfl fun k _ => ?_
  show val_main_v39 (F := Ideal) x0 x2 x5 x6 x9 x10 x11 x12 (ix2 0 k) * val_main_v1 (F := Ideal) x0 x3 x4 (ix2 k 0) = _
  rw [val_main_v39_apply, idx39 k]

/-- The reference's readout result, over its memory and normaliser results. -/
theorem refH_eq (x0 : FVec Ideal S4096x1 .f32) (x1 : FVec Ideal S4096x4096 .f32) (x2 : FVec Ideal S4096x1 .f32)
    (x3 : FVec Ideal S4096x4096 .f32) (x4 : FVec Ideal S4096x1 .f32) (x5 : FVec Ideal S4096x4096 .f32) (x6 : FVec Ideal S4096x1 .f32)
    (x7 : FVec Ideal S4096x4096 .f32) (x8 : FVec Ideal S4096x1 .f32) (x9 : FVec Ideal S1x4096 .f32) (x10 : FVec Ideal S1 .f32)
    (x11 : FVec Ideal S1x4096 .f32) (x12 : FVec Ideal S1 .f32) (x13 : FVec Ideal S4096x4096 .f32) (x14 : FVec Ideal S4096x1 .f32) :
    val_main_v55 (F := Ideal) x0 x1 x2 x3 x4 x5 x6 x7 x8 x9 x10 x11 x12 x13 x14
      = Cert.Spec.refH (Cert.Spec.refO x13 x0 x14) (val_main_v32 (F := Ideal) x0 x1 x5 x6 x7 x8 x9 x10 x11 x12)
          (val_main_v38 (F := Ideal) x0 x2 x5 x6 x9 x10 x11 x12) (Cert.Spec.refMv x3 x0 x4) := by
  funext i
  rw [val_main_v55_apply, val_main_v46_apply, val_main_v45_apply, val_main_v43_apply, val_main_v41_apply,
    val_main_v42_apply, val_main_cst_2_apply, idx45 i, v54_eq, v44_at, v40_at]
  rfl

end Cert.ReferenceIdeal.RefVal

end
-- ==== Proof.RefRes.lean ====
/-
  The reference program's run re-posted: its three results as the plain spelling's readout, memory and
  normaliser of the arguments, each a named function of the argument arrays.
-/
import proofs.«162263_j86105504350522_1_alg».proof.Proof.Gen.ReferenceIdeal.Run
import proofs.«162263_j86105504350522_1_alg».proof.Proof.Gen.ReferenceIdeal.Read
import proofs.«162263_j86105504350522_1_alg».proof.Proof.RefVal

set_option maxRecDepth 16384

noncomputable section

open Idealize.ShloMosaic Idealize.ShloMosaic.TcCoe Idealize.SL.Sem
open Cert.ReferenceIdeal Cert.ReferenceIdeal.Gen Cert.ReferenceIdeal.Read

namespace Cert.ReferenceIdeal.RefRes

/-- The memory C = f C' + g v k^T of the arguments. -/
def resC (x0 : FVec Ideal S4096x1 .f32) (x1 : FVec Ideal S4096x4096 .f32) (x5 : FVec Ideal S4096x4096 .f32) (x6 : FVec Ideal S4096x1 .f32) (x7 : FVec Ideal S4096x4096 .f32) (x8 : FVec Ideal S4096x1 .f32) (x9 : FVec Ideal S1x4096 .f32) (x10 : FVec Ideal S1 .f32) (x11 : FVec Ideal S1x4096 .f32) (x12 : FVec Ideal S1 .f32) : FVec Ideal S4096x4096 .f32 :=
  Cert.Spec.refC (val_main_v11 (F := Ideal) x0 x9 x10) (val_main_v20 (F := Ideal) x0 x11 x12) x1
    (Cert.Spec.refMv x7 x0 x8) (Cert.Spec.refK x5 x0 x6)

/-- The normaliser n = f n' + g k of the arguments. -/
def resN (x0 : FVec Ideal S4096x1 .f32) (x2 : FVec Ideal S4096x1 .f32) (x5 : FVec Ideal S4096x4096 .f32) (x6 : FVec Ideal S4096x1 .f32) (x9 : FVec Ideal S1x4096 .f32) (x10 : FVec Ideal S1 .f32) (x11 : FVec Ideal S1x4096 .f32) (x12 : FVec Ideal S1 .f32) : FVec Ideal S4096x1 .f32 :=
  Cert.Spec.updN (val_main_v11 (F := Ideal) x0 x9 x10) (val_main_v20 (F := Ideal) x0 x11 x12) x2 (Cert.Spec.refK x5 x0 x6)

/-- The readout h = o * (C q) / max(|n . q|, 1) of the arguments. -/
def resH (x0 : FVec Ideal S4096x1 .f32) (x1 : FVec Ideal S4096x4096 .f32) (x2 : FVec Ideal S4096x1 .f32) (x3 : FVec Ideal S4096x4096 .f32) (x4 : FVec Ideal S4096x1 .f32) (x5 : FVec Ideal S4096x4096 .f32) (x6 : FVec Ideal S4096x1 .f32) (x7 : FVec Ideal S4096x4096 .f32) (x8 : FVec Ideal S4096x1 .f32) (x9 : FVec Ideal S1x4096 .f32) (x10 : FVec Ideal S1 .f32) (x11 : FVec Ideal S1x4096 .f32) (x12 : FVec Ideal S1 .f32) (x13 : FVec Ideal S4096x4096 .f32) (x14 : FVec Ideal S4096x1 .f32) : FVec Ideal S4096x1 .f32 :=
  Cert.Spec.refH (Cert.Spec.refO x13 x0 x14) (resC x0 x1 x5 x6 x7 x8 x9 x10 x11 x12) (resN x0 x2 x5 x6 x9 x10 x11 x12) (Cert.Spec.refMv x3 x0 x4)

theorem val32 (x0 : FVec Ideal S4096x1 .f32) (x1 : FVec Ideal S4096x4096 .f32) (x5 : FVec Ideal S4096x4096 .f32) (x6 : FVec Ideal S4096x1 .f32) (x7 : FVec Ideal S4096x4096 .f32) (x8 : FVec Ideal S4096x1 .f32) (x9 : FVec Ideal S1x4096 .f32) (x10 : FVec Ideal S1 .f32) (x11 : FVec Ideal S1x4096 .f32) (x12 : FVec Ideal S1 .f32) : val_main_v32 (F := Ideal) x0 x1 x5 x6 x7 x8 x9 x10 x11 x12 = resC x0 x1 x5 x6 x7 x8 x9 x10 x11 x12 :=
  Cert.ReferenceIdeal.RefVal.refC_eq x0 x1 x5 x6 x7 x8 x9 x10 x11 x12

theorem val38 (x0 : FVec Ideal S4096x1 .f32) (x2 : FVec Ideal S4096x1 .f32) (x5 : FVec Ideal S4096x4096 .f32) (x6 : FVec Ideal S4096x1 .f32) (x9 : FVec Ideal S1x4096 .f32) (x10 : FVec Ideal S1 .f32) (x11 : FVec Ideal S1x4096 .f32) (x12 : FVec Ideal S1 .f32) : val_main_v38 (F := Ideal) x0 x2 x5 x6 x9 x10 x11 x12 = resN x0 x2 x5 x6 x9 x10 x11 x12 :=
  Cert.ReferenceIdeal.RefVal.refN_eq x0 x2 x5 x6 x9 x10 x11 x12

theorem val55 (x0 : FVec Ideal S4096x1 .f32) (x1 : FVec Ideal S4096x4096 .f32) (x2 : FVec Ideal S4096x1 .f32) (x3 : FVec Ideal S4096x4096 .f32) (x4 : FVec Ideal S4096x1 .f32) (x5 : FVec Ideal S4096x4096 .f32) (x6 : FVec Ideal S4096x1 .f32) (x7 : FVec Ideal S4096x4096 .f32) (x8 : FVec Ideal S4096x1 .f32) (x9 : FVec Ideal S1x4096 .f32) (x10 : FVec Ideal S1 .f32) (x11 : FVec Ideal S1x4096 .f32) (x12 : FVec Ideal S1 .f32) (x13 : FVec Ideal S4096x4096 .f32) (x14 : FVec Ideal S4096x1 .f32) : val_main_v55 (F := Ideal) x0 x1 x2 x3 x4 x5 x6 x7 x8 x9 x10 x11 x12 x13 x14 = resH x0 x1 x2 x3 x4 x5 x6 x7 x8 x9 x10 x11 x12 x13 x14 := by
  rw [Cert.ReferenceIdeal.RefVal.refH_eq, val32, val38]; rfl

/-- Equal arguments give equal results. -/
theorem resC_congr {x0 y0 : FVec Ideal S4096x1 .f32} {x1 y1 : FVec Ideal S4096x4096 .f32} {x5 y5 : FVec Ideal S4096x4096 .f32} {x6 y6 : FVec Ideal S4096x1 .f32} {x7 y7 : FVec Ideal S4096x4096 .f32} {x8 y8 : FVec Ideal S4096x1 .f32} {x9 y9 : FVec Ideal S1x4096 .f32} {x10 y10 : FVec Ideal S1 .f32} {x11 y11 : FVec Ideal S1x4096 .f32} {x12 y12 : FVec Ideal S1 .f32} (h0 : x0 = y0) (h1 : x1 = y1) (h5 : x5 = y5) (h6 : x6 = y6) (h7 : x7 = y7) (h8 : x8 = y8) (h9 : x9 = y9) (h10 : x10 = y10) (h11 : x11 = y11) (h12 : x12 = y12) : resC x0 x1 x5 x6 x7 x8 x9 x10 x11 x12 = resC y0 y1 y5 y6 y7 y8 y9 y10 y11 y12 := by
  subst h0 h1 h5 h6 h7 h8 h9 h10 h11 h12; rfl

theorem resN_congr {x0 y0 : FVec Ideal S4096x1 .f32} {x2 y2 : FVec Ideal S4096x1 .f32} {x5 y5 : FVec Ideal S4096x4096 .f32} {x6 y6 : FVec Ideal S4096x1 .f32} {x9 y9 : FVec Ideal S1x4096 .f32} {x10 y10 : FVec Ideal S1 .f32} {x11 y11 : FVec Ideal S1x4096 .f32} {x12 y12 : FVec Ideal S1 .f32} (h0 : x0 = y0) (h2 : x2 = y2) (h5 : x5 = y5) (h6 : x6 = y6) (h9 : x9 = y9) (h10 : x10 = y10) (h11 : x11 = y11) (h12 : x12 = y12) : resN x0 x2 x5 x6 x9 x10 x11 x12 = resN y0 y2 y5 y6 y9 y10 y11 y12 := by
  subst h0 h2 h5 h6 h9 h10 h11 h12; rfl

theorem resH_congr {x0 y0 : FVec Ideal S4096x1 .f32} {x1 y1 : FVec Ideal S4096x4096 .f32} {x2 y2 : FVec Ideal S4096x1 .f32} {x3 y3 : FVec Ideal S4096x4096 .f32} {x4 y4 : FVec Ideal S4096x1 .f32} {x5 y5 : FVec Ideal S4096x4096 .f32} {x6 y6 : FVec Ideal S4096x1 .f32} {x7 y7 : FVec Ideal S4096x4096 .f32} {x8 y8 : FVec Ideal S4096x1 .f32} {x9 y9 : FVec Ideal S1x4096 .f32} {x10 y10 : FVec Ideal S1 .f32} {x11 y11 : FVec Ideal S1x4096 .f32} {x12 y12 : FVec Ideal S1 .f32} {x13 y13 : FVec Ideal S4096x4096 .f32} {x14 y14 : FVec Ideal S4096x1 .f32} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) : resH x0 x1 x2 x3 x4 x5 x6 x7 x8 x9 x10 x11 x12 x13 x14 = resH y0 y1 y2 y3 y4 y5 y6 y7 y8 y9 y10 y11 y12 y13 y14 := by
  subst h0 h1 h2 h3 h4 h5 h6 h7 h8 h9 h10 h11 h12 h13 h14; rfl

variable (m : (ℓ : Loc nD τ sig) → Buf (Elt Ideal) ℓ) (ρ : Dev nD → PrngReg)

theorem post55 (c : Dev nD) {X : Buf (Elt Ideal) ((c.tc : Thread nD τ).loc main_v55)}
    (h : X = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) :
    X = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := h.trans (val55 _ _ _ _ _ _ _ _ _ _ _ _ _ _ _)

theorem post32 (c : Dev nD) {X : Buf (Elt Ideal) ((c.tc : Thread nD τ).loc main_v32)}
    (h : X = val_main_v32 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) :
    X = resC (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := h.trans (val32 _ _ _ _ _ _ _ _ _ _)

theorem post38 (c : Dev nD) {X : Buf (Elt Ideal) ((c.tc : Thread nD τ).loc main_v38)}
    (h : X = val_main_v38 (F := Ideal) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12))) :
    X = resN (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) := h.trans (val38 _ _ _ _ _ _ _ _)

/-- The reference's run, its results named. -/
theorem run_results : θ_run defs (onTc (τ := τ) (main (F := Ideal))) ⟨m, fun _ => 0, ρ⟩ (fun r => ∀ c : Dev nD,
      r.2.mem ((c.tc : Thread nD τ).loc main_v55) = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v32) = resC (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v38) = resN (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨post55 m c ((h c).1.trans (val_main_v55_eq (F := Ideal) _ _ _ _ _ _ _ _ _ _ _ _ _ _ _)),
      post32 m c ((h c).2.1.trans (val_main_v32_eq (F := Ideal) _ _ _ _ _ _ _ _ _ _)),
      post38 m c ((h c).2.2.1.trans (val_main_v38_eq (F := Ideal) _ _ _ _ _ _ _ _)),
      (h c).2.2.2⟩)
    (Cert.ReferenceIdeal.Value.run (F := Ideal) m ρ)

end Cert.ReferenceIdeal.RefRes

end
-- ==== Proof.lean ====
/-
  The certificate of a single-step matrix-memory cell: a tiled kernel program of five regions against its plain
  reference, equal on the extended reals.

  Both programs compute, from an input column x, weight matrices and biases, the query q = W_q x + b_q, the key
  k = (W_k x + b_k) / 64, the value v = W_v x + b_v, two scalar gates g = exp(w_i x + b_i) and
  f = 1 / (1 + exp(-(w_f x + b_f))), the memory C = f C' + g v k^T, the normaliser n = f n' + g k and the readout
  h = o * (C q) / max(|n . q|, 1) with the output gate o = 1 / (1 + exp(-(W_o x + b_o))). The kernel takes q and k as
  row vectors against the ROWS of the weight blocks, scales the key's sum and its bias separately by 1/64, updates
  the memory in row blocks and sums C(i, k) q(k) along each row; the reference multiplies matrices by columns and
  scales the key after adding its bias. The two agree for ALL extended reals: products commute, 1 and 0 are
  neutral, and the nonnegative finite factor 1/64 distributes over a sum — so the finiteness precondition is never
  opened. The idealization rewrote no operation, so the preservation claim is trivial.
-/
import proofs.«162263_j86105504350522_1_alg».proof.Defs
import proofs.«162263_j86105504350522_1_alg».proof.Proof.Gen.Kernel
import proofs.«162263_j86105504350522_1_alg».proof.Proof.Gen.Kernel.Frame
import proofs.«162263_j86105504350522_1_alg».proof.Proof.Gen.KernelIdeal
import proofs.«162263_j86105504350522_1_alg».proof.Proof.Gen.KernelIdeal.Frame
import proofs.«162263_j86105504350522_1_alg».proof.Proof.Gen.ReferenceIdeal
import proofs.«162263_j86105504350522_1_alg».proof.Proof.Gen.Pre_finite_inputs
import proofs.«162263_j86105504350522_1_alg».proof.Proof.Gen.ReferenceIdeal.Run
import proofs.«162263_j86105504350522_1_alg».proof.Proof.Gen.ReferenceIdeal.Read
import proofs.«162263_j86105504350522_1_alg».proof.Proof.KRun
import proofs.«162263_j86105504350522_1_alg».proof.Proof.KVal
import proofs.«162263_j86105504350522_1_alg».proof.Proof.RefRes
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel launch: its frame is its run with the three results forgotten. -/
theorem frame_ri : Cert.frame_ReferenceIdeal := fun m ρ _ =>
  (θ_run Cert.ReferenceIdeal.defs _ _).mono (fun _ h c => (h c).2.2.2) (Cert.ReferenceIdeal.RefRes.run_results m ρ)

/-- No operation was rewritten by the idealization. -/
theorem preserves : Cert.preserves_Kernel_KernelIdeal := trivial

open Cert.KernelIdeal in
/-- From memories that agree on the arguments both programs end with the plain spelling's readout, memory and
    normaliser of those arguments in their result buffers. -/
theorem algebraic : Cert.algebraic_KernelIdeal_ReferenceIdeal := by
  intro m ρ m' ρ' _ hagree
  refine ⟨fun c => Cert.ReferenceIdeal.RefRes.resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)),
    fun c => Cert.ReferenceIdeal.RefRes.resC (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)),
    fun c => Cert.ReferenceIdeal.RefRes.resN (m ((c : Thread nD τ).loc main_arg0)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)), ?_, ?_⟩
  · exact (θ_run Cert.KernelIdeal.defs _ _).mono (fun r h c =>
      ⟨(h c).1.trans (Cert.KernelIdeal.KVal.res_H m ρ c), (h c).2.1.trans (Cert.KernelIdeal.KVal.res_C m ρ c),
        (h c).2.2.1.trans (Cert.KernelIdeal.KVal.res_N m ρ c), (h c).2.2.2⟩)
      (Cert.KernelIdeal.Run.run_results (F := Ideal) m ρ)
  · refine (θ_run Cert.ReferenceIdeal.defs _ _).mono (fun r h c => ?_)
      (Cert.ReferenceIdeal.RefRes.run_results m' ρ')
    obtain ⟨e0, e1, e2, e3, e4, e5, e6, e7, e8, e9, e10, e11, e12, e13, e14⟩ := hagree c
    exact ⟨(h c).1.trans (Cert.ReferenceIdeal.RefRes.resH_congr e0 e1 e2 e3 e4 e5 e6 e7 e8 e9 e10 e11 e12 e13 e14),
      (h c).2.1.trans (Cert.ReferenceIdeal.RefRes.resC_congr e0 e1 e5 e6 e7 e8 e9 e10 e11 e12),
      (h c).2.2.1.trans (Cert.ReferenceIdeal.RefRes.resN_congr e0 e2 e5 e6 e9 e10 e11 e12), (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
